-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x40 : S_.BroadcastsInDim S64x40 (![] : Fin 0 → Fin S64x40.rank)
  reducesTo_S64x40_S_d0_1 : S64x40.ReducesTo [0, 1] S_
  bcast_S_S40 : S_.BroadcastsInDim S40 (![] : Fin 0 → Fin S40.rank)
  reducesTo_S40_S_d0 : S40.ReducesTo [0] S_

variable [Facts]

def fn_part4 {F : FTy → Type} [FloatOps F] (main_arg15 : FVec F S64 .f32) (main_arg16 : FVec F S64x40 .f32) (main_arg17 : FVec F S40 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x40 .f32 := Host.absf main_arg16
  let main_cst_28 : FVec F S_ .f32 := constant S_ .f32 0x7F800000#32
  let main_v75 : FVec F S64x40 .f32 := broadcastInDim S64x40 ![] bcast_S_S64x40 main_cst_28
  let main_v76 : IVec S64x40 1 := cmpf .olt main_v74 main_v75
  let main_c_29 : IVec S_ 1 := constantI S_ 1 1#1
  let main_v77 : IVec S_ 1 := (fun x v => Host.reduce IntOp.andi x v reducesTo_S64x40_S_d0_1 h_S_) main_v76 main_c_29
  let main_v78 : IVec S_ 1 := andi main_v73 main_v77
  let main_v79 : FVec F S40 .f32 := Host.absf main_arg17
  let main_cst_30 : FVec F S_ .f32 := constant S_ .f32 0x7F800000#32
  let main_v80 : FVec F S40 .f32 := broadcastInDim S40 ![] bcast_S_S40 main_cst_30
  let main_v81 : IVec S40 1 := cmpf .olt main_v79 main_v80
  let main_c_31 : IVec S_ 1 := constantI S_ 1 1#1
  let main_v82 : IVec S_ 1 := (fun x v => Host.reduce IntOp.andi x v reducesTo_S40_S_d0 h_S_) main_v81 main_c_31
  let main_v83 : IVec S_ 1 := andi main_v78 main_v82
  main_v83

def fn_part3 {F : FTy → Type} [FloatOps F] (main_arg12 : FVec F S64 .f32) (main_arg13 : FVec F S64 .f32) (main_arg14 : FVec F S64 .f32) (main_arg15 : FVec F S64 .f32) (main_arg16 : FVec F S64x40 .f32) (main_arg17 : FVec F S40 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_v63 main_v67

def fn_part2 {F : FTy → Type} [FloatOps F] (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x40 .f32) (main_arg17 : FVec F S40 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x40 .f32) (main_arg17 : FVec F S40 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) (main_arg6 : FVec F S64 .f32) (main_arg7 : FVec F S64 .f32) (main_arg8 : FVec F S64x64 .f32) (main_arg9 : FVec F S64 .f32) (main_arg10 : FVec F S64x64 .f32) (main_arg11 : FVec F S64 .f32) (main_arg12 : FVec F S64 .f32) (main_arg13 : FVec F S64 .f32) (main_arg14 : FVec F S64 .f32) (main_arg15 : FVec F S64 .f32) (main_arg16 : FVec F S64x40 .f32) (main_arg17 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩
abbrev S1x40 : Shape := ⟨2, ![1, 40]⟩
abbrev S100000x40 : Shape := ⟨2, ![100000, 40]⟩
abbrev S10000x40 : Shape := ⟨2, ![10000, 40]⟩
abbrev S10000 : Shape := ⟨1, ![10000]⟩
abbrev S10000x1 : Shape := ⟨2, ![10000, 1]⟩

abbrev nBuf : Space → Nat
  | .hbm => 62
  | .vmem => 28
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x40, .f32⟩
  | .hbm, ⟨17, _⟩ => ⟨S40, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S1x64, .f32⟩
  | .hbm, ⟨36, _⟩ => ⟨S1x64, .f32⟩
  | .hbm, ⟨37, _⟩ => ⟨S1x64, .f32⟩
  | .hbm, ⟨38, _⟩ => ⟨S1x64, .f32⟩
  | .hbm, ⟨39, _⟩ => ⟨S1x64, .f32⟩
  | .hbm, ⟨40, _⟩ => ⟨S1x64, .f32⟩
  | .hbm, ⟨41, _⟩ => ⟨S100000x64, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S1x64, .f32⟩
  | .hbm, ⟨56, _⟩ => ⟨S1x64, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x40, .f32⟩
  | .hbm, ⟨61, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S10000x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S10000x64, .f32⟩
  | .local _ .vmem, ⟨18, _⟩ => ⟨S64x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S64x40, .f32⟩
  | .local _ .vmem, ⟨25, _⟩ => ⟨S1x40, .f32⟩
  | .local _ .vmem, ⟨26, _⟩ => ⟨S10000x40, .f32⟩
  | .local _ .vmem, ⟨27, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_c_1 : Ref sig .tc := ⟨.hbm, 42, rfl⟩
abbrev main_v21 : Ref sig .tc := ⟨.hbm, 43, rfl⟩
abbrev main_v22 : Ref sig .tc := ⟨.hbm, 44, rfl⟩
abbrev main_c_2 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_3 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64x40 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x40 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x40 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  shapeCasts_S40_S1x40 : S40.ShapeCasts S1x40
  inb_S64x40_S64x40_0_0 : ∀ a, (![0, 0] : Fin 2 → Nat) a + S64x40.size a ≤ S64x40.size a
  h_S64x40 : 0 < S64x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  dot_S10000x64_S64x40_S10000x40_1_0_0_1_n_n_wf : DotDims.WF S10000x64 S64x40 S10000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x64.size a ≤ S64x64.size a
  hwx0_8 : ∀ i : grid0.Coords, EltTy.bits .f32 = 32 ∨ (Rect.block (s := S64x64) S64x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x64.size a ≤ S100000x64.size a
  hwx0_10 : ∀ i : grid0.Coords, EltTy.bits .f32 = 32 ∨ (Rect.block (s := S100000x64) S10000x64.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64x40.size a ≤ S64x40.size a
  hwx1_8 : ∀ i : grid1.Coords, EltTy.bits .f32 = 32 ∨ (Rect.block (s := S64x40) S64x40.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x40.size a ≤ S1x40.size a
  hwx1_9 : ∀ i : grid1.Coords, EltTy.bits .f32 = 32 ∨ (Rect.block (s := S1x40) S1x40.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x40.size a ≤ S100000x40.size a
  hwx1_10 : ∀ i : grid1.Coords, EltTy.bits .f32 = 32 ∨ (Rect.block (s := S100000x40) S10000x40.size (cc1_transform_10 i) (hinb1_10 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x64_S64x40_S10000x40_1_0_0_1_n_n : DotDims S10000x64 S64x40 S10000x40 where
  lhsContracting := [1]
  rhsContracting := [0]
  lhsNonContracting := [0]
  rhsNonContracting := [1]
  lhsBatch := []
  rhsBatch := []
  wf := dot_S10000x64_S64x40_S10000x40_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S10000x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v32) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S64x40.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v36) S1x40.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v37) S10000x40.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S64x40 : Shape := ⟨2, ![64, 40]⟩
abbrev S40 : Shape := ⟨1, ![40]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 122
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S64x40, .f32⟩
  | .hbm, ⟨17, _⟩ => ⟨S40, .f32⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x64, .f32⟩
  | .hbm, ⟨31, _⟩ => ⟨S_, .f32⟩
  | .hbm, ⟨32, _⟩ => ⟨S100000x64, .f32⟩
  | .hbm, ⟨33, _⟩ => ⟨S1600000x1, .i32⟩
  | .hbm, ⟨34, _⟩ => ⟨S100000x64, .f32⟩
  | .hbm, ⟨35, _⟩ => ⟨S100000x64, .f32⟩
  | .hbm, ⟨36, _⟩ => ⟨S100000x64, .f32⟩
  | .hbm, ⟨37, _⟩ => ⟨S1x64, .f32⟩
  | .hbm, ⟨38, _⟩ => ⟨S100000x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .hbm, ⟨53, _⟩ => ⟨S1x64, .f32⟩
  | .hbm, ⟨54, _⟩ => ⟨S100000x64, .f32⟩
  | .hbm, ⟨55, _⟩ => ⟨S100000x64, .f32⟩
  | .hbm, ⟨56, _⟩ => ⟨S_, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S1x64, .f32⟩
  | .hbm, ⟨61, _⟩ => ⟨S100000x64, .f32⟩
  | .hbm, ⟨62, _⟩ => ⟨S100000x64, .f32⟩
  | .hbm, ⟨63, _⟩ => ⟨S_, .f32⟩
  | .hbm, ⟨64, _⟩ => ⟨S100000x64, .f32⟩
  | .hbm, ⟨65, _⟩ => ⟨S100000x64, .f32⟩
  | .hbm, ⟨66, _⟩ => ⟨S_, .i32⟩
  | .hbm, ⟨67, _⟩ => ⟨S1600000, .i32⟩
  | .hbm, ⟨68, _⟩ => ⟨S1600000, .i1⟩
  | .hbm, ⟨69, _⟩ => ⟨S_, .i32⟩
  | .hbm, ⟨70, _⟩ => ⟨S1600000, .i32⟩
  | .hbm, ⟨71, _⟩ => ⟨S1600000, .i32⟩
  | .hbm, ⟨72, _⟩ => ⟨S1600000, .i32⟩
  | .hbm, ⟨73, _⟩ => ⟨S1600000x1, .i32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S100000x64, .f32⟩
  | .hbm, ⟨80, _⟩ => ⟨S100000x64, .f32⟩
  | .hbm, ⟨81, _⟩ => ⟨S1x64, .f32⟩
  | .hbm, ⟨82, _⟩ => ⟨S100000x64, .f32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S_, .f32⟩
  | .hbm, ⟨88, _⟩ => ⟨S64, .f32⟩
  | .hbm, ⟨89, _⟩ => ⟨S64, .f32⟩
  | .hbm, ⟨90, _⟩ => ⟨S64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S1x64, .f32⟩
  | .hbm, ⟨95, _⟩ => ⟨S100000x64, .f32⟩
  | .hbm, ⟨96, _⟩ => ⟨S100000x64, .f32⟩
  | .hbm, ⟨97, _⟩ => ⟨S1x64, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | .hbm, ⟨103, _⟩ => ⟨S100000x40, .f32⟩
  | .hbm, ⟨104, _⟩ => ⟨S1x40, .f32⟩
  | .hbm, ⟨105, _⟩ => ⟨S100000x40, .f32⟩
  | .hbm, ⟨106, _⟩ => ⟨S100000x40, .f32⟩
  | .hbm, ⟨107, _⟩ => ⟨S_, .f32⟩
  | .hbm, ⟨108, _⟩ => ⟨S100000, .f32⟩
  | .hbm, ⟨109, _⟩ => ⟨S_, .f32⟩
  | .hbm, ⟨110, _⟩ => ⟨S100000, .f32⟩
  | .hbm, ⟨111, _⟩ => ⟨S100000, .f32⟩
  | .hbm, ⟨112, _⟩ => ⟨S100000x1, .f32⟩
  | .hbm, ⟨113, _⟩ => ⟨S100000x40, .f32⟩
  | .hbm, ⟨114, _⟩ => ⟨S100000x40, .f32⟩
  | .hbm, ⟨115, _⟩ => ⟨S100000x40, .f32⟩
  | .hbm, ⟨116, _⟩ => ⟨S_, .f32⟩
  | .hbm, ⟨117, _⟩ => ⟨S100000, .f32⟩
  | .hbm, ⟨118, _⟩ => ⟨S100000x1, .f32⟩
  | .hbm, ⟨119, _⟩ => ⟨S100000x1, .f32⟩
  | .hbm, ⟨120, _⟩ => ⟨S100000x40, .f32⟩
  | .hbm, ⟨121, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_c : Ref sig .tc := ⟨.hbm, 22, rfl⟩
abbrev main_v4 : Ref sig .tc := ⟨.hbm, 23, rfl⟩
abbrev main_v5 : Ref sig .tc := ⟨.hbm, 24, rfl⟩
abbrev main_c_0 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_call0_cst : Ref sig .tc := ⟨.hbm, 56, rfl⟩
abbrev main_call0_v0 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call1_cst : Ref sig .tc := ⟨.hbm, 63, rfl⟩
abbrev main_call1_v0 : Ref sig .tc := ⟨.hbm, 64, rfl⟩
abbrev main_v39 : Ref sig .tc := ⟨.hbm, 65, rfl⟩
abbrev main_c_2 : Ref sig .tc := ⟨.hbm, 66, rfl⟩
abbrev main_v40 : Ref sig .tc := ⟨.hbm, 67, rfl⟩
abbrev main_v41 : Ref sig .tc := ⟨.hbm, 68, rfl⟩
abbrev main_c_3 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_4 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_5 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_call2_cst : Ref sig .tc := ⟨.hbm, 100, rfl⟩
abbrev main_call2_v0 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_call3_cst : Ref sig .tc := ⟨.hbm, 107, rfl⟩
abbrev main_call3_v0 : Ref sig .tc := ⟨.hbm, 108, rfl⟩
abbrev main_call3_cst_0 : Ref sig .tc := ⟨.hbm, 109, rfl⟩
abbrev main_call3_v1 : Ref sig .tc := ⟨.hbm, 110, rfl⟩
abbrev main_call3_v2 : Ref sig .tc := ⟨.hbm, 111, rfl⟩
abbrev main_call3_v3 : Ref sig .tc := ⟨.hbm, 112, rfl⟩
abbrev main_call3_v4 : Ref sig .tc := ⟨.hbm, 113, rfl⟩
abbrev main_call3_v5 : Ref sig .tc := ⟨.hbm, 114, rfl⟩
abbrev main_call3_v6 : Ref sig .tc := ⟨.hbm, 115, rfl⟩
abbrev main_call3_cst_1 : Ref sig .tc := ⟨.hbm, 116, rfl⟩
abbrev main_call3_v7 : Ref sig .tc := ⟨.hbm, 117, rfl⟩
abbrev main_call3_v8 : Ref sig .tc := ⟨.hbm, 118, rfl⟩
abbrev main_call3_v9 : Ref sig .tc := ⟨.hbm, 119, rfl⟩
abbrev main_call3_v10 : Ref sig .tc := ⟨.hbm, 120, rfl⟩
abbrev main_v75 : Ref sig .tc := ⟨.hbm, 121, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64 : S_.BroadcastsInDim S64 (![] : Fin 0 → Fin S64.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x64_S64x40_S100000x40_1_0_0_1_n_n_wf : DotDims.WF S100000x64 S64x40 S100000x40 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.Layers.lean ====
/-
  The two layers of the network as functions of their operands, index by index, over the extended reals.

  A layer works on each node (row) by itself.  From the node's own feature row `xr` and the sum `ar` of its
  in-neighbours' rows it forms, for each hidden unit `k`,
      h k = max (((∑ k', (ar k' + xr k') · w1 k' k) + b1 k − μ k) · rsqrt (σ² k + ε) · γ k + β k) 0
  (a linear map, the normalisation by fixed statistics, the rectifier), and then for each output unit `j` the
  logit  z j = (∑ k, h k · w2 k j) + b2 j.
  The first layer returns `max (z j) 0`.  The second returns the logarithm of the softmax of the row `z` in its
  shifted form: with `M` the maximum of the row (folded from −∞), `(z j − M) − log (∑ j', exp (z j' − M))`.

  The per-feature parameters are rows `[1, 64]` (`[1, 40]` for the last bias), read at `(0, k)`.  The three float
  constants are kept as their binary words: the same word appears on both sides of every equation below, so none of
  them is ever evaluated.
-/
import Idealize.ShloMosaic.PureOps.Ideal
import Idealize.ShloMosaic.Lib.ValueIdx

noncomputable section

namespace Cert.Gin

open Idealize.ShloMosaic Idealize.ShloMosaic.ValueIdx

/-- A rank-2 array of extended reals. -/
abbrev Mat (a b : ℕ) := (⟨2, ![a, b]⟩ : Shape).Idx → EReal

/-- The word of `0.0`. -/
def zeroWord : EReal := Ideal.ofBits .f32 0x00000000#32
/-- The word of the variance offset ε (the float nearest to 1e-5). -/
def epsWord : EReal := Ideal.ofBits .f32 0x3727C5AC#32
/-- The word of −∞, from which a row maximum is folded. -/
def negInfWord : EReal := Ideal.ofBits .f32 0xFF800000#32

/-- Row `r` of an array with 64 columns. -/
def row {n : ℕ} (x : Mat n 64) (r : Fin n) : Fin 64 → EReal := fun k => x (ix2 r k)

/-- Hidden unit `k` of a node with own row `xr` and aggregated row `ar`. -/
def hidden (xr ar : Fin 64 → EReal) (w1 : Mat 64 64) (b1 g bt mu var : Mat 1 64) (k : Fin 64) : EReal :=
  max (((((∑ k' : Fin 64, (ar k' + xr k') * w1 (ix2 k' k)) + b1 (ix2 0 k)) - mu (ix2 0 k))
      * Ideal.rsqrt (var (ix2 0 k) + epsWord)) * g (ix2 0 k) + bt (ix2 0 k)) zeroWord

/-- Output unit `j` before the layer's last nonlinearity. -/
def logit {c : ℕ} (xr ar : Fin 64 → EReal) (w1 : Mat 64 64) (b1 g bt mu var : Mat 1 64) (w2 : Mat 64 c) (b2 : Mat 1 c)
    (j : Fin c) : EReal :=
  (∑ k : Fin 64, hidden xr ar w1 b1 g bt mu var k * w2 (ix2 k j)) + b2 (ix2 0 j)

/-- The maximum of a row, folded from −∞. -/
def rowMax {c : ℕ} (z : Fin c → EReal) : EReal := (Finset.univ : Finset (Fin c)).fold max negInfWord z

/-- Entry `j` of the logarithm of the softmax of the row `z`, in its shifted form. -/
def logSoftmaxRow {c : ℕ} (z : Fin c → EReal) (j : Fin c) : EReal :=
  (z j - rowMax z) - Ideal.log (∑ j' : Fin c, Ideal.exp (z j' - rowMax z))

/-- The first layer: rectified logits, node by node. -/
def layer0 {n : ℕ} (x agg : Mat n 64) (w1 : Mat 64 64) (b1 g bt mu var : Mat 1 64) (w2 : Mat 64 64) (b2 : Mat 1 64) :
    Mat n 64 :=
  fun i => max (logit (row x (i 0)) (row agg (i 0)) w1 b1 g bt mu var w2 b2 (i 1)) zeroWord

/-- The second layer: the log-softmax of each node's 40 logits. -/
def layer1 {n : ℕ} (x agg : Mat n 64) (w1 : Mat 64 64) (b1 g bt mu var : Mat 1 64) (w2 : Mat 64 40) (b2 : Mat 1 40) :
    Mat n 40 :=
  fun i => logSoftmaxRow (fun j => logit (row x (i 0)) (row agg (i 0)) w1 b1 g bt mu var w2 b2 j) (i 1)

/-- The maximum of a value `b` and a maximum folded from `b` is the folded maximum: the fold never goes below its
    starting value. -/
theorem max_fold_max_self {ι : Type} (s : Finset ι) (b : EReal) (f : ι → EReal) :
    max b (s.fold max b f) = s.fold max b f :=
  max_eq_right (Finset.le_fold_max b |>.mpr (Or.inl le_rfl))

end Cert.Gin

end
-- ==== Proof.LibColumnForms.lean ====
/-
  Column ("keepdims") forms of two layout operations, read at an index. The library reads a vector cast to a ROW
  [1, a] and a row [1, b] broadcast over many rows; these are the same two facts for a COLUMN: a vector of length `a`
  cast to [a, 1], and a column [a, 1] broadcast over `b` lanes.
-/
import Idealize.ShloMosaic.Lib.Pipeline.Value
import Idealize.ShloMosaic.Lib.ValueIdx

namespace Idealize.ShloMosaic.ValueLayout

open Idealize.ShloMosaic Idealize.ShloMosaic.ValueIdx

variable {α : Type}

/-- An `[a]` array cast to the column `[a, 1]` reads, at `(i, u)`, the operand at `i`, whatever the unit coordinate `u`:
    both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueLayout
-- ==== Proof.LibHostMaxForms.lean ====
/-
  The host's reduce with a maximum body over ONE axis of a rank-2 or rank-3 array, read at an index written by its
  coordinates: the maximum, folded from the initial value, of the operand along that axis.  (The general statement
  folds over the reduced index with the coordinate inserted; here the inserted index is spelt out.)
-/
import Idealize.ShloMosaic.PureOps.Ideal.Laws
import Idealize.ShloMosaic.Lib.ValueIdx

namespace Idealize.ShloMosaic.ValueIdx

open Idealize.ShloMosaic

variable {A B C : ℕ}

/-- (r, s) with k put back on the last axis is (r, s, k). -/
theorem lift3_last (h : (⟨3, ![A, B, C]⟩ : Shape).Reduces [2] (⟨2, ![A, B]⟩ : Shape)) (r : Fin A) (s : Fin B)
    (k : Fin ((⟨3, ![A, B, C]⟩ : Shape).size 2)) : h.lift (ix2 r s) k = ix3 r s (⟨k.val, k.isLt⟩ : Fin C) := by
  funext c; apply Fin.ext
  fin_cases c <;> rfl

/-- (r, q) with s put back on the middle axis is (r, s, q). -/
theorem lift3_middle (h : (⟨3, ![A, B, C]⟩ : Shape).Reduces [1] (⟨2, ![A, C]⟩ : Shape)) (r : Fin A) (q : Fin C)
    (s : Fin ((⟨3, ![A, B, C]⟩ : Shape).size 1)) : h.lift (ix2 r q) s = ix3 r (⟨s.val, s.isLt⟩ : Fin B) q := by
  funext c; apply Fin.ext
  fin_cases c <;> rfl

/-- r with k put back on the last axis is (r, k). -/
theorem lift2_last (h : (⟨2, ![A, B]⟩ : Shape).Reduces [1] (⟨1, ![A]⟩ : Shape)) (r : Fin A)
    (k : Fin ((⟨2, ![A, B]⟩ : Shape).size 1)) : h.lift (ix1 r) k = ix2 r (⟨k.val, k.isLt⟩ : Fin B) := by
  funext c; apply Fin.ext
  fin_cases c <;> rfl

/-- A rank-3 array reduced by maximum over its last axis, at (r, s). -/
theorem hostReduceMax3_last (x : (⟨3, ![A, B, C]⟩ : Shape).Idx → EReal) (init : (⟨0, ![]⟩ : Shape).Idx → EReal)
    (h' : (⟨3, ![A, B, C]⟩ : Shape).ReducesTo [2] (⟨2, ![A, B]⟩ : Shape))
    (h : (⟨3, ![A, B, C]⟩ : Shape).Reduces [2] (⟨2, ![A, B]⟩ : Shape)) (hu : 0 < (⟨0, ![]⟩ : Shape).numel)
    (r : Fin A) (s : Fin B) :
    Host.reduce (FloatOps.maximumf (F := Ideal) (φ := .f32)) x init h' hu (ix2 r s)
      = (Finset.univ : Finset (Fin C)).fold max (init (Shape.Idx.first hu)) fun k => x (ix3 r s k) := by
  rw [Host.reduce_eq_fold_single _ x init h' h hu]
  exact congrArg (fun f : Fin C → EReal => (Finset.univ : Finset (Fin C)).fold max (init (Shape.Idx.first hu)) f)
    (funext fun k => congrArg x (lift3_last h r s k))

/-- A rank-3 array reduced by maximum over its middle axis, at (r, q). -/
theorem hostReduceMax3_middle (x : (⟨3, ![A, B, C]⟩ : Shape).Idx → EReal) (init : (⟨0, ![]⟩ : Shape).Idx → EReal)
    (h' : (⟨3, ![A, B, C]⟩ : Shape).ReducesTo [1] (⟨2, ![A, C]⟩ : Shape))
    (h : (⟨3, ![A, B, C]⟩ : Shape).Reduces [1] (⟨2, ![A, C]⟩ : Shape)) (hu : 0 < (⟨0, ![]⟩ : Shape).numel)
    (r : Fin A) (q : Fin C) :
    Host.reduce (FloatOps.maximumf (F := Ideal) (φ := .f32)) x init h' hu (ix2 r q)
      = (Finset.univ : Finset (Fin B)).fold max (init (Shape.Idx.first hu)) fun s => x (ix3 r s q) := by
  rw [Host.reduce_eq_fold_single _ x init h' h hu]
  exact congrArg (fun f : Fin B → EReal => (Finset.univ : Finset (Fin B)).fold max (init (Shape.Idx.first hu)) f)
    (funext fun s => congrArg x (lift3_middle h r q s))

/-- A rank-2 array reduced by maximum over its last axis, at r. -/
theorem hostReduceMax2_last (x : (⟨2, ![A, B]⟩ : Shape).Idx → EReal) (init : (⟨0, ![]⟩ : Shape).Idx → EReal)
    (h' : (⟨2, ![A, B]⟩ : Shape).ReducesTo [1] (⟨1, ![A]⟩ : Shape))
    (h : (⟨2, ![A, B]⟩ : Shape).Reduces [1] (⟨1, ![A]⟩ : Shape)) (hu : 0 < (⟨0, ![]⟩ : Shape).numel) (r : Fin A) :
    Host.reduce (FloatOps.maximumf (F := Ideal) (φ := .f32)) x init h' hu (ix1 r)
      = (Finset.univ : Finset (Fin B)).fold max (init (Shape.Idx.first hu)) fun k => x (ix2 r k) := by
  rw [Host.reduce_eq_fold_single _ x init h' h hu]
  exact congrArg (fun f : Fin B → EReal => (Finset.univ : Finset (Fin B)).fold max (init (Shape.Idx.first hu)) f)
    (funext fun k => congrArg x (lift2_last h r k))

end Idealize.ShloMosaic.ValueIdx
-- ==== Proof.Payload.lean ====
/-
  The arithmetic of the two kernel bodies, read at one entry of the output block.

  A body works on a block of 10000 nodes.  Its two matrix products contract over the 64 features into a zero
  accumulator, so entry (p, q) of a product is the plain sum over k of left (p, k) · right (k, q); the per-feature
  rows are broadcast down the block; the row maximum and the row sum of the second body run over the 40 logits of
  one node.  Hence entry (p, q) of what a body stores depends only on row p of its two node blocks, and it is the
  layer's formula (`Cert.Gin.logit`, rectified, or `Cert.Gin.logSoftmaxRow` of the node's logits).
-/
import proofs.«162577_j87101936763026_1_alg».proof.Proof.Gen.KernelIdeal.Skeleton
import proofs.«162577_j87101936763026_1_alg».proof.Proof.Layers
import proofs.«162577_j87101936763026_1_alg».proof.Proof.LibColumnForms
import proofs.«162577_j87101936763026_1_alg».proof.Proof.LibHostMaxForms
import Idealize.ShloMosaic.Lib.ValueLayout
import Idealize.ShloMosaic.Lib.ValueIdx
import Idealize.ShloMosaic.Lib.Pipeline.Value
import Idealize.ShloMosaic.PureOps.Ideal.Laws

noncomputable section

namespace Cert.Gin.Payload

open Idealize.ShloMosaic Idealize.ShloMosaic.ValueIdx Idealize.ShloMosaic.ValueLayout
open Cert.KernelIdeal Cert.KernelIdeal.Gen Cert.Gin

/-! ## The two matrix products at an entry -/

/-- Coordinate 0 of the left operand's index: the output's row. -/
theorem lhs64_0 (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide),
    dif_pos (show (0 : Fin S10000x64.rank) ∈ dot_S10000x64_S64x64_S10000x64_1_0_0_1_n_n.lhsNonContracting by decide)]
  rfl
/-- Coordinate 1 of the right operand's index: the output's column. -/
theorem rhs64_1 (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide),
    dif_pos (show (1 : Fin S64x64.rank) ∈ dot_S10000x64_S64x64_S10000x64_1_0_0_1_n_n.rhsNonContracting by decide)]
  rfl

/-- A block of 10000 rows times a 64 × 64 matrix, into a zero accumulator: entry (p, q) is the sum over the 64
    contracted features. -/
theorem matmul64_apply (l : FVec Ideal S10000x64 .f32) (r : FVec Ideal S64x64 .f32) (p : Fin 10000) (q : Fin 64) :
    matmul dot_S10000x64_S64x64_S10000x64_1_0_0_1_n_n none l r (constant (F := Ideal) S10000x64 .f32 0x00000000#32) (ix2 p q)
      = ∑ k : Fin 64, l (ix2 p k) * r (ix2 k q) := by
  simp only [matmul]
  rw [Ideal.matmul_constant_zero_apply, ← Equiv.sum_comp (contrEquiv1 dot_S10000x64_S64x64_S10000x64_1_0_0_1_n_n 64 rfl rfl).symm]
  refine Finset.sum_congr rfl fun k _ => ?_
  have hk := contrEquiv1_symm_val dot_S10000x64_S64x64_S10000x64_1_0_0_1_n_n 64 rfl rfl k
  have el : dot_S10000x64_S64x64_S10000x64_1_0_0_1_n_n.lhsIdx (ix2 p q) ((contrEquiv1 dot_S10000x64_S64x64_S10000x64_1_0_0_1_n_n 64 rfl rfl).symm k) = ix2 p k :=
    funext fun a => Fin.ext (by
      match a with
      | ⟨0, _⟩ => exact lhs64_0 _ _
      | ⟨1, _⟩ => exact (dot_S10000x64_S64x64_S10000x64_1_0_0_1_n_n.lhsIdx_val_of_single rfl _ _).trans hk)
  have er : dot_S10000x64_S64x64_S10000x64_1_0_0_1_n_n.rhsIdx (ix2 p q) ((contrEquiv1 dot_S10000x64_S64x64_S10000x64_1_0_0_1_n_n 64 rfl rfl).symm k) = ix2 k q :=
    funext fun a => Fin.ext (by
      match a with
      | ⟨0, _⟩ => exact (dot_S10000x64_S64x64_S10000x64_1_0_0_1_n_n.rhsIdx_val_of_single rfl _ _).trans hk
      | ⟨1, _⟩ => exact rhs64_1 _ _)
  rw [el, er]

/-- Coordinate 0 of the left operand's index: the output's row. -/
theorem lhs40_0 (i : S10000x40.Idx) (q : dot_S10000x64_S64x40_S10000x40_1_0_0_1_n_n.contr.Idx) :
    (dot_S10000x64_S64x40_S10000x40_1_0_0_1_n_n.lhsIdx i q 0).val = (i 0).val := by
  unfold DotDims.lhsIdx
  rw [dif_neg (show ¬(0 : Fin S10000x64.rank) ∈ dot_S10000x64_S64x40_S10000x40_1_0_0_1_n_n.lhsBatch by decide),
    dif_pos (show (0 : Fin S10000x64.rank) ∈ dot_S10000x64_S64x40_S10000x40_1_0_0_1_n_n.lhsNonContracting by decide)]
  rfl
/-- Coordinate 1 of the right operand's index: the output's column. -/
theorem rhs40_1 (i : S10000x40.Idx) (q : dot_S10000x64_S64x40_S10000x40_1_0_0_1_n_n.contr.Idx) :
    (dot_S10000x64_S64x40_S10000x40_1_0_0_1_n_n.rhsIdx i q 1).val = (i 1).val := by
  unfold DotDims.rhsIdx
  rw [dif_neg (show ¬(1 : Fin S64x40.rank) ∈ dot_S10000x64_S64x40_S10000x40_1_0_0_1_n_n.rhsBatch by decide),
    dif_pos (show (1 : Fin S64x40.rank) ∈ dot_S10000x64_S64x40_S10000x40_1_0_0_1_n_n.rhsNonContracting by decide)]
  rfl

/-- The same for the 64 × 40 matrix of the last linear map. -/
theorem matmul40_apply (l : FVec Ideal S10000x64 .f32) (r : FVec Ideal S64x40 .f32) (p : Fin 10000) (q : Fin 40) :
    matmul dot_S10000x64_S64x40_S10000x40_1_0_0_1_n_n none l r (constant (F := Ideal) S10000x40 .f32 0x00000000#32) (ix2 p q)
      = ∑ k : Fin 64, l (ix2 p k) * r (ix2 k q) := by
  simp only [matmul]
  rw [Ideal.matmul_constant_zero_apply, ← Equiv.sum_comp (contrEquiv1 dot_S10000x64_S64x40_S10000x40_1_0_0_1_n_n 64 rfl rfl).symm]
  refine Finset.sum_congr rfl fun k _ => ?_
  have hk := contrEquiv1_symm_val dot_S10000x64_S64x40_S10000x40_1_0_0_1_n_n 64 rfl rfl k
  have el : dot_S10000x64_S64x40_S10000x40_1_0_0_1_n_n.lhsIdx (ix2 p q) ((contrEquiv1 dot_S10000x64_S64x40_S10000x40_1_0_0_1_n_n 64 rfl rfl).symm k) = ix2 p k :=
    funext fun a => Fin.ext (by
      match a with
      | ⟨0, _⟩ => exact lhs40_0 _ _
      | ⟨1, _⟩ => exact (dot_S10000x64_S64x40_S10000x40_1_0_0_1_n_n.lhsIdx_val_of_single rfl _ _).trans hk)
  have er : dot_S10000x64_S64x40_S10000x40_1_0_0_1_n_n.rhsIdx (ix2 p q) ((contrEquiv1 dot_S10000x64_S64x40_S10000x40_1_0_0_1_n_n 64 rfl rfl).symm k) = ix2 k q :=
    funext fun a => Fin.ext (by
      match a with
      | ⟨0, _⟩ => exact (dot_S10000x64_S64x40_S10000x40_1_0_0_1_n_n.rhsIdx_val_of_single rfl _ _).trans hk
      | ⟨1, _⟩ => exact rhs40_1 _ _)
  rw [el, er]

/-! ## The row reductions of the second body -/

/-- The maximum over the lanes of each row, folded from the accumulator's word: at row `r` it is the fold over the
    row's entries. -/
theorem rowMax_apply {A B : ℕ} (src : FVec Ideal ⟨2, ![A, B]⟩ .f32) (acc : BitVec 32)
    (h : (⟨2, ![A, B]⟩ : Shape).Reduces [1] ⟨1, ![A]⟩) (hφ : FKind.Formats .f32) (hacc : acc = FKind.maximumf.neutral .f32 hφ)
    (r : Fin A) :
    multiReduction .maximumf [1] ⟨1, ![A]⟩ src acc h hφ hacc (ix1 r)
      = (Finset.univ : Finset (Fin B)).fold max (Ideal.ofBits .f32 acc) fun k => src (ix2 r k) :=
  (Ideal.multiReduction_maximumf_single src acc h hφ hacc (ix1 r)).trans
    (congrArg (fun f : Fin B → EReal => (Finset.univ : Finset (Fin B)).fold max (Ideal.ofBits .f32 acc) f)
      (funext fun k => congrArg src (lift2_last h r k)))

/-- The sum over the lanes of each row: at row `r` it is the sum of the row's entries. -/
theorem rowSum_apply {A B : ℕ} (src : FVec Ideal ⟨2, ![A, B]⟩ .f32) (acc : BitVec 32)
    (h : (⟨2, ![A, B]⟩ : Shape).Reduces [1] ⟨1, ![A]⟩) (hφ : FKind.Formats .f32) (hacc : acc = FKind.add.neutral .f32 hφ)
    (r : Fin A) :
    multiReduction .add [1] ⟨1, ![A]⟩ src acc h hφ hacc (ix1 r) = ∑ k : Fin B, src (ix2 r k) :=
  (Ideal.multiReduction_add_single src acc h hφ hacc (ix1 r)).trans
    (Finset.sum_congr rfl fun k _ => congrArg src (lift2_last h r k))

/-! ## The part the two bodies share -/

/-- The hidden units of the block's row `p`, from the summed block `s` (the aggregated block plus the node block): the
    first product, the bias, the normalisation by the fixed statistics and the rectifier. -/
theorem hidden_apply (s : FVec Ideal S10000x64 .f32) (w1 : FVec Ideal S64x64 .f32) (b1 mu var g bt : FVec Ideal S1x64 .f32)
    (p : Fin 10000) (k : Fin 64) (xr ar : Fin 64 → EReal) (hs : ∀ k' : Fin 64, s (ix2 p k') = ar k' + xr k') :
    maximumf (addf (mulf (mulf (subf (addf (matmul dot_S10000x64_S64x64_S10000x64_1_0_0_1_n_n none
        s w1 (constant (F := Ideal) S10000x64 .f32 0x00000000#32))
        (broadcastTo S10000x64 (shapeCast S1x64 b1 shapeCasts_S1x64_S1x64) broadcasts_S1x64_S10000x64))
        (broadcastTo S10000x64 (shapeCast S1x64 mu shapeCasts_S1x64_S1x64) broadcasts_S1x64_S10000x64))
        (broadcastTo S10000x64 (rsqrt (addf (shapeCast S1x64 var shapeCasts_S1x64_S1x64) (broadcast S1x64 (Scalar.ofBits (F := Ideal) .f32 0x3727C5AC#32)))) broadcasts_S1x64_S10000x64))
        (broadcastTo S10000x64 (shapeCast S1x64 g shapeCasts_S1x64_S1x64) broadcasts_S1x64_S10000x64))
        (broadcastTo S10000x64 (shapeCast S1x64 bt shapeCasts_S1x64_S1x64) broadcasts_S1x64_S10000x64))
      (broadcast S10000x64 (Scalar.ofBits (F := Ideal) .f32 0x00000000#32)) (ix2 p k)
      = hidden xr ar w1 b1 g bt mu var k := by
  show max (((matmul dot_S10000x64_S64x64_S10000x64_1_0_0_1_n_n none s w1 _ (ix2 p k)
      + broadcastTo S10000x64 _ broadcasts_S1x64_S10000x64 (ix2 p k))
      - broadcastTo S10000x64 _ broadcasts_S1x64_S10000x64 (ix2 p k))
      * broadcastTo S10000x64 _ broadcasts_S1x64_S10000x64 (ix2 p k)
      * broadcastTo S10000x64 _ broadcasts_S1x64_S10000x64 (ix2 p k)
      + broadcastTo S10000x64 _ broadcasts_S1x64_S10000x64 (ix2 p k)) _ = _
  rw [matmul64_apply, broadcastTo_1b_ab_apply, broadcastTo_1b_ab_apply, broadcastTo_1b_ab_apply, broadcastTo_1b_ab_apply,
    broadcastTo_1b_ab_apply]
  simp only [shapeCast_self, hs]
  rfl

/-! ## The first body -/

/-- Entry (p, q) of what the first body stores: the rectified logit `q` of the block's node `p`. -/
theorem pay0_apply (x agg : FVec Ideal S10000x64 .f32) (w1 : FVec Ideal S64x64 .f32) (b1 g bt mu var : FVec Ideal S1x64 .f32)
    (w2 : FVec Ideal S64x64 .f32) (b2 : FVec Ideal S1x64 .f32) (p : Fin 10000) (q : Fin 64) :
    k0_pay1 (F := Ideal) (k0_pay2 (F := Ideal) agg x w1 b1 mu var g bt w2) (k0_pay3 (F := Ideal) b2) (ix2 p q)
      = max (logit (row x p) (row agg p) w1 b1 g bt mu var w2 b2 q) zeroWord := by
  unfold k0_pay1 k0_pay2 k0_pay3
  dsimp only
  show max (matmul dot_S10000x64_S64x64_S10000x64_1_0_0_1_n_n none _ w2 _ (ix2 p q)
      + broadcastTo S10000x64 _ broadcasts_S1x64_S10000x64 (ix2 p q)) _ = _
  rw [matmul64_apply, broadcastTo_1b_ab_apply, shapeCast_self b2]
  refine congrArg (fun t : EReal => max (t + b2 (ix2 0 q)) zeroWord) (Finset.sum_congr rfl fun k _ => ?_)
  refine congrArg (fun t : EReal => t * w2 (ix2 k q)) ?_
  exact hidden_apply _ w1 b1 mu var g bt p k (row x p) (row agg p) fun k' => by
    show shapeCast S10000x64 agg shapeCasts_S10000x64_S10000x64 (ix2 p k') + x (ix2 p k') = _
    rw [shapeCast_self]; rfl

/-! ## The second body -/

/-- The tail of the second body over the block `Z` of logits: subtract each row's maximum, exponentiate, sum each
    row, take the logarithm, subtract — entry (p, q) is the log-softmax of row `p` at `q`. -/
theorem softmax_apply (Z : FVec Ideal S10000x40 .f32) (p : Fin 10000) (q : Fin 40) :
    subf (subf Z (broadcastTo S10000x40 (shapeCast S10000x1
          (multiReduction .maximumf [1] S10000 Z 0xFF800000#32 reduces_S10000x40_S10000 (.inl rfl) rfl)
          shapeCasts_S10000_S10000x1) broadcasts_S10000x1_S10000x40))
      (broadcastTo S10000x40 (log (shapeCast S10000x1
          (multiReduction .add [1] S10000 (exp (subf Z (broadcastTo S10000x40 (shapeCast S10000x1
              (multiReduction .maximumf [1] S10000 Z 0xFF800000#32 reduces_S10000x40_S10000 (.inl rfl) rfl)
              shapeCasts_S10000_S10000x1) broadcasts_S10000x1_S10000x40))) 0x00000000#32 reduces_S10000x40_S10000 (.inl rfl) rfl)
          shapeCasts_S10000_S10000x1)) broadcasts_S10000x1_S10000x40) (ix2 p q)
      = logSoftmaxRow (fun j => Z (ix2 p j)) q := by
  have hM : ∀ r : Fin 10000,
      multiReduction .maximumf [1] S10000 Z 0xFF800000#32 reduces_S10000x40_S10000 (.inl rfl) rfl (ix1 r)
        = rowMax (fun j => Z (ix2 r j)) := fun r => rowMax_apply Z _ _ _ _ r
  generalize multiReduction .maximumf [1] S10000 Z 0xFF800000#32 reduces_S10000x40_S10000 (.inl rfl) rfl = M at hM ⊢
  have hD : ∀ (r : Fin 10000) (j : Fin 40),
      subf Z (broadcastTo S10000x40 (shapeCast S10000x1 M shapeCasts_S10000_S10000x1) broadcasts_S10000x1_S10000x40) (ix2 r j)
        = Z (ix2 r j) - rowMax (fun j => Z (ix2 r j)) := fun r j => by
    show Z (ix2 r j) - broadcastTo S10000x40 _ broadcasts_S10000x1_S10000x40 (ix2 r j) = _
    rw [broadcastTo_a1_ab_apply, shapeCast_a_a1_apply, hM]
  generalize subf Z (broadcastTo S10000x40 (shapeCast S10000x1 M shapeCasts_S10000_S10000x1) broadcasts_S10000x1_S10000x40) = D at hD ⊢
  have hS : ∀ r : Fin 10000,
      multiReduction .add [1] S10000 (exp D) 0x00000000#32 reduces_S10000x40_S10000 (.inl rfl) rfl (ix1 r)
        = ∑ j : Fin 40, Ideal.exp (Z (ix2 r j) - rowMax (fun j => Z (ix2 r j))) := fun r =>
    (rowSum_apply (exp D) _ _ _ _ r).trans (Finset.sum_congr rfl fun j _ => by
      show Ideal.exp (D (ix2 r j)) = _
      rw [hD])
  generalize multiReduction .add [1] S10000 (exp D) 0x00000000#32 reduces_S10000x40_S10000 (.inl rfl) rfl = S at hS ⊢
  show D (ix2 p q) - broadcastTo S10000x40 _ broadcasts_S10000x1_S10000x40 (ix2 p q) = _
  rw [broadcastTo_a1_ab_apply]
  show D (ix2 p q) - Ideal.log (shapeCast S10000x1 S shapeCasts_S10000_S10000x1 (ix2 p (0 : Fin 1))) = _
  rw [shapeCast_a_a1_apply, hS, hD]
  rfl

/-- Entry (p, q) of what the second body stores: the log-softmax of the 40 logits of the block's node `p`, at `q`. -/
theorem pay1_apply (x agg : FVec Ideal S10000x64 .f32) (w1 : FVec Ideal S64x64 .f32) (b1 g bt mu var : FVec Ideal S1x64 .f32)
    (w2 : FVec Ideal S64x40 .f32) (b2 : FVec Ideal S1x40 .f32) (p : Fin 10000) (q : Fin 40) :
    k1_pay1 (F := Ideal) (k1_pay2 (F := Ideal) agg x w1 b1 mu var g bt w2) b2 (ix2 p q)
      = logSoftmaxRow (fun j => logit (row x p) (row agg p) w1 b1 g bt mu var w2 b2 j) q := by
  have hZ : ∀ (r : Fin 10000) (j : Fin 40),
      addf (k1_pay2 (F := Ideal) agg x w1 b1 mu var g bt w2)
          (broadcastTo S10000x40 (shapeCast S1x40 b2 shapeCasts_S1x40_S1x40) broadcasts_S1x40_S10000x40) (ix2 r j)
        = logit (row x r) (row agg r) w1 b1 g bt mu var w2 b2 j := fun r j => by
    unfold k1_pay2
    dsimp only
    show matmul dot_S10000x64_S64x40_S10000x40_1_0_0_1_n_n none _ w2 _ (ix2 r j)
        + broadcastTo S10000x40 _ broadcasts_S1x40_S10000x40 (ix2 r j) = _
    rw [matmul40_apply, broadcastTo_1b_ab_apply, shapeCast_self b2]
    refine congrArg (fun t : EReal => t + b2 (ix2 0 j)) (Finset.sum_congr rfl fun k _ => ?_)
    refine congrArg (fun t : EReal => t * w2 (ix2 k j)) ?_
    exact hidden_apply _ w1 b1 mu var g bt r k (row x r) (row agg r) fun k' => by
      show shapeCast S10000x64 agg shapeCasts_S10000x64_S10000x64 (ix2 r k')
          + shapeCast S10000x64 x shapeCasts_S10000x64_S10000x64 (ix2 r k') = _
      rw [shapeCast_self, shapeCast_self]; rfl
  unfold k1_pay1
  dsimp only
  generalize addf (k1_pay2 (F := Ideal) agg x w1 b1 mu var g bt w2)
      (broadcastTo S10000x40 (shapeCast S1x40 b2 shapeCasts_S1x40_S1x40) broadcasts_S1x40_S10000x40) = Z at hZ ⊢
  rw [softmax_apply Z p q]
  exact congrArg (fun z : Fin 40 → EReal => logSoftmaxRow z q) (funext fun j => hZ p j)

end Cert.Gin.Payload

end
-- ==== Proof.Region0.lean ====
/-
  Region 0 of the kernel: the output array after the region is the layer applied to the arrays the region finds.

  The region runs over ten grid points.  At point `t` the two node arrays and the output are cut into blocks of
  10000 rows — block `t` holds rows 10000·t … 10000·t + 9999 — while each of the eight parameter arrays is one block
  held for all ten points.  A body's entry (p, q) depends only on row p of its node blocks, so what point `t` writes
  back is block `t` of the layer's whole-array function; the ten blocks tile the 100000 rows, hence the output array
  ends holding that function everywhere.
-/
import proofs.«162577_j87101936763026_1_alg».proof.Proof.Gen.KernelIdeal.Frame
import proofs.«162577_j87101936763026_1_alg».proof.Proof.Payload
import Idealize.ShloMosaic.Lib.Pipeline.Value

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Gin.Payload

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the ten points: the node windows and the output sit at block row `t`,
    every parameter window at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_10.index t (0 : Fin 2) = t.val ∧ win0_10.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ t.val < 10 :=
  (by decide +kernel : ∀ t : Fin grid0.N, _)

/-- Row `p` of block `t` is row 10000·t + p of the array. -/
def rowOf (t : Fin cfg0.N) (p : Fin 10000) : Fin 100000 :=
  ⟨t.val * 10000 + p.val, by have := (idx_facts t).2.2.2.2.2.2.2.2.2.2.2; have := p.isLt; omega⟩

/-- Entry (p, k) of node window 0's block at point `t`. -/
theorem blk0_apply (c : Dev nD) (t : Fin cfg0.N) (p : Fin 10000) (k : Fin 64) :
    (iblk0 V c 0 t : Vec Ideal S10000x64 .f32) (ix2 p k) = (V c main_arg0 : Mat 100000 64) (ix2 (rowOf t p) k) := by
  obtain ⟨⟨e0, e1⟩, -⟩ := idx_facts t
  show V c main_arg0 (((cfg0.win 0).blk t).view.emb (ix2 p k)) = V c main_arg0 (ix2 (rowOf t p) k)
  refine congrArg (V c main_arg0) (funext fun a => Fin.ext ?_)
  match a with
  | ⟨0, _⟩ => show win0_0.index t (0 : Fin 2) * 10000 + 1 * p.val = t.val * 10000 + p.val; omega
  | ⟨1, _⟩ => show win0_0.index t (1 : Fin 2) * 64 + 1 * k.val = k.val; omega

/-- Entry (p, k) of node window 1's block at point `t`. -/
theorem blk1_apply (c : Dev nD) (t : Fin cfg0.N) (p : Fin 10000) (k : Fin 64) :
    (iblk0 V c 1 t : Vec Ideal S10000x64 .f32) (ix2 p k) = (V c main_v13 : Mat 100000 64) (ix2 (rowOf t p) k) := by
  obtain ⟨-, ⟨e0, e1⟩, -⟩ := idx_facts t
  show V c main_v13 (((cfg0.win 1).blk t).view.emb (ix2 p k)) = V c main_v13 (ix2 (rowOf t p) k)
  refine congrArg (V c main_v13) (funext fun a => Fin.ext ?_)
  match a with
  | ⟨0, _⟩ => show win0_1.index t (0 : Fin 2) * 10000 + 1 * p.val = t.val * 10000 + p.val; omega
  | ⟨1, _⟩ => show win0_1.index t (1 : Fin 2) * 64 + 1 * k.val = k.val; omega

/-- Parameter window 2's one block is its whole array. -/
theorem blk2_eq (c : Dev nD) (t : Fin cfg0.N) :
    (iblk0 V c 2 t : Vec Ideal S64x64 .f32) = V c main_arg2 := by
  obtain ⟨e0, e1⟩ := (idx_facts t).2.2.2.1
  funext y
  show V c main_arg2 (((cfg0.win 2).blk t).view.emb y) = V c main_arg2 y
  refine congrArg (V c main_arg2) (funext fun a => Fin.ext ?_)
  match a with
  | ⟨0, _⟩ => show win0_2.index t (0 : Fin 2) * 64 + 1 * (y 0).val = (y 0).val; omega
  | ⟨1, _⟩ => show win0_2.index t (1 : Fin 2) * 64 + 1 * (y 1).val = (y 1).val; omega

/-- Parameter window 3's one block is its whole array. -/
theorem blk3_eq (c : Dev nD) (t : Fin cfg0.N) :
    (iblk0 V c 3 t : Vec Ideal S1x64 .f32) = V c main_v14 := by
  obtain ⟨e0, e1⟩ := (idx_facts t).2.2.2.2.1
  funext y
  show V c main_v14 (((cfg0.win 3).blk t).view.emb y) = V c main_v14 y
  refine congrArg (V c main_v14) (funext fun a => Fin.ext ?_)
  match a with
  | ⟨0, _⟩ => show win0_3.index t (0 : Fin 2) * 1 + 1 * (y 0).val = (y 0).val; omega
  | ⟨1, _⟩ => show win0_3.index t (1 : Fin 2) * 64 + 1 * (y 1).val = (y 1).val; omega

/-- Parameter window 4's one block is its whole array. -/
theorem blk4_eq (c : Dev nD) (t : Fin cfg0.N) :
    (iblk0 V c 4 t : Vec Ideal S1x64 .f32) = V c main_v15 := by
  obtain ⟨e0, e1⟩ := (idx_facts t).2.2.2.2.2.1
  funext y
  show V c main_v15 (((cfg0.win 4).blk t).view.emb y) = V c main_v15 y
  refine congrArg (V c main_v15) (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Parameter window 5's one block is its whole array. -/
theorem blk5_eq (c : Dev nD) (t : Fin cfg0.N) :
    (iblk0 V c 5 t : Vec Ideal S1x64 .f32) = V c main_v16 := by
  obtain ⟨e0, e1⟩ := (idx_facts t).2.2.2.2.2.2.1
  funext y
  show V c main_v16 (((cfg0.win 5).blk t).view.emb y) = V c main_v16 y
  refine congrArg (V c main_v16) (funext fun a => Fin.ext ?_)
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Parameter window 6's one block is its whole array. -/
theorem blk6_eq (c : Dev nD) (t : Fin cfg0.N) :
    (iblk0 V c 6 t : Vec Ideal S1x64 .f32) = V c main_v17 := by
  obtain ⟨e0, e1⟩ := (idx_facts t).2.2.2.2.2.2.2.1
  funext y
  show V c main_v17 (((cfg0.win 6).blk t).view.emb y) = V c main_v17 y
  refine congrArg (V c main_v17) (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- Parameter window 7's one block is its whole array. -/
theorem blk7_eq (c : Dev nD) (t : Fin cfg0.N) :
    (iblk0 V c 7 t : Vec Ideal S1x64 .f32) = V c main_v18 := by
  obtain ⟨e0, e1⟩ := (idx_facts t).2.2.2.2.2.2.2.2.1
  funext y
  show V c main_v18 (((cfg0.win 7).blk t).view.emb y) = V c main_v18 y
  refine congrArg (V c main_v18) (funext fun a => Fin.ext ?_)
  match a with
  | ⟨0, _⟩ => show win0_7.index t (0 : Fin 2) * 1 + 1 * (y 0).val = (y 0).val; omega
  | ⟨1, _⟩ => show win0_7.index t (1 : Fin 2) * 64 + 1 * (y 1).val = (y 1).val; omega

/-- Parameter window 8's one block is its whole array. -/
theorem blk8_eq (c : Dev nD) (t : Fin cfg0.N) :
    (iblk0 V c 8 t : Vec Ideal S64x64 .f32) = V c main_arg8 := by
  obtain ⟨e0, e1⟩ := (idx_facts t).2.2.2.2.2.2.2.2.2.1
  funext y
  show V c main_arg8 (((cfg0.win 8).blk t).view.emb y) = V c main_arg8 y
  refine congrArg (V c main_arg8) (funext fun a => Fin.ext ?_)
  match a with
  | ⟨0, _⟩ => show win0_8.index t (0 : Fin 2) * 64 + 1 * (y 0).val = (y 0).val; omega
  | ⟨1, _⟩ => show win0_8.index t (1 : Fin 2) * 64 + 1 * (y 1).val = (y 1).val; omega

/-- Parameter window 9's one block is its whole array. -/
theorem blk9_eq (c : Dev nD) (t : Fin cfg0.N) :
    (iblk0 V c 9 t : Vec Ideal S1x64 .f32) = V c main_v19 := by
  obtain ⟨e0, e1⟩ := (idx_facts t).2.2.2.2.2.2.2.2.2.2.1
  funext y
  show V c main_v19 (((cfg0.win 9).blk t).view.emb y) = V c main_v19 y
  refine congrArg (V c main_v19) (funext fun a => Fin.ext ?_)
  match a with
  | ⟨0, _⟩ => show win0_9.index t (0 : Fin 2) * 1 + 1 * (y 0).val = (y 0).val; omega
  | ⟨1, _⟩ => show win0_9.index t (1 : Fin 2) * 64 + 1 * (y 1).val = (y 1).val; omega

/-- The layer's whole-array function of the arrays the region finds. -/
def result (c : Dev nD) : Mat 100000 64 :=
  layer0 (V c main_arg0) (V c main_v13) (V c main_arg2) (V c main_v14) (V c main_v15) (V c main_v16) (V c main_v17) (V c main_v18)
    (V c main_arg8) (V c main_v19)

/-- What point `t` writes back is block `t` of the layer's whole-array function. -/
theorem flushed_eq (c : Dev nD) (t : Fin cfg0.N) :
    (dat0 V c).flushed 10 t = ((cfg0.win 10).blk t).view.read (Elt Ideal) (result V c) := by
  show (cfg0.win 10).cut (grid0.coords t) ((dat0 V c).after 10 t) = _
  rw [after0_10]
  unfold out0_10
  rw [View.canon_unit_zero origin]
  simp only [View.ld_unit_zero (S := S10000x64) origin, View.ld_unit_zero (S := S64x64) origin,
    View.ld_unit_zero (S := S1x64) origin]
  rw [blk2_eq V c t, blk3_eq V c t, blk4_eq V c t, blk5_eq V c t, blk6_eq V c t, blk7_eq V c t, blk8_eq V c t, blk9_eq V c t]
  funext j
  obtain ⟨p, q, rfl⟩ : ∃ (p : Fin 10000) (q : Fin 64), j = ix2 p q := ⟨j 0, j 1, eq_ix2 j⟩
  obtain ⟨-, -, ⟨e0, e1⟩, -⟩ := idx_facts t
  have hemb : ((cfg0.win 10).blk t).view.emb (ix2 p q) = ix2 (rowOf t p) q := funext fun a => Fin.ext (by
    match a with
    | ⟨0, _⟩ => show win0_10.index t (0 : Fin 2) * 10000 + 1 * p.val = t.val * 10000 + p.val; omega
    | ⟨1, _⟩ => show win0_10.index t (1 : Fin 2) * 64 + 1 * q.val = q.val; omega)
  show k0_pay1 (k0_pay2 (iblk0 V c 1 t) (iblk0 V c 0 t) (V c main_arg2) (V c main_v14) (V c main_v17) (V c main_v18) (V c main_v15) (V c main_v16) (V c main_arg8)) (k0_pay3 (V c main_v19)) (ix2 p q)
    = result V c (((cfg0.win 10).blk t).view.emb (ix2 p q))
  rw [hemb]
  refine (pay0_apply _ _ _ _ _ _ _ _ _ _ p q).trans ?_
  have hx : row (iblk0 V c 0 t : Vec Ideal S10000x64 .f32) p = row (V c main_arg0 : Mat 100000 64) (rowOf t p) :=
    funext fun k => blk0_apply V c t p k
  have ha : row (iblk0 V c 1 t : Vec Ideal S10000x64 .f32) p = row (V c main_v13 : Mat 100000 64) (rowOf t p) :=
    funext fun k => blk1_apply V c t p k
  rw [hx, ha]
  rfl

/-- An index of the output array is in point `t`'s block iff each coordinate is in the block's range. -/
theorem mem_blk (t : Fin cfg0.N) (i : S100000x64.Idx) :
    i ∈ ((cfg0.win 10).blk t).view.set ↔ ∀ a : Fin 2, win0_10.index t a * S10000x64.size a ≤ (i a).val
      ∧ (i a).val < win0_10.index t a * S10000x64.size a + S10000x64.size a := by
  show i ∈ ((View.whole main_v20).slice (win0_10.rect t)).set ↔ _
  rw [View.set_slice_whole, Rect.mem_set_unit]
  exact Iff.rfl

/-- Every block row is some point's. -/
theorem idx_onto : ∀ q0 : Fin 10, ∃ t : Fin cfg0.N, win0_10.index t = ![q0.val, 0] :=
  (by decide +kernel : ∀ q0 : Fin 10, ∃ t : Fin grid0.N, win0_10.index t = ![q0.val, 0])

/-- The ten blocks tile the output array: row `r` lies in the block of the point with block row `r / 10000`. -/
theorem cover (i : S100000x64.Idx) :
    ∃ t : Fin cfg0.N, (cfg0.win 10).flush t = true ∧ i ∈ ((cfg0.win 10).blk t).view.set := by
  have hi0 : (i 0).val < 100000 := (i 0).isLt
  have hi1 : (i 1).val < 64 := (i 1).isLt
  obtain ⟨t, ht⟩ := idx_onto ⟨(i 0).val / 10000, by omega⟩
  have q0 : win0_10.index t (0 : Fin 2) = (i 0).val / 10000 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 10000 ≤ (i 0).val ∧ (i 0).val < win0_10.index t (0 : Fin 2) * 10000 + 10000; omega
  | ⟨1, _⟩ => show win0_10.index t (1 : Fin 2) * 64 ≤ (i 1).val ∧ (i 1).val < win0_10.index t (1 : Fin 2) * 64 + 64; omega

/-- The output array after the region: the layer of the arrays the region finds. -/
theorem final (c : Dev nD) : (dat0 V c).arrAt 10 cfg0.N = result V c :=
  (dat0 V c).arrAt_eq_of_cover 10 (result V c) (fun t _ => flushed_eq V c t) (cover)

end Cert.KernelIdeal.Region0

end
-- ==== Proof.Region1.lean ====
/-
  Region 1 of the kernel: the output array after the region is the layer applied to the arrays the region finds.

  The region runs over ten grid points.  At point `t` the two node arrays and the output are cut into blocks of
  10000 rows — block `t` holds rows 10000·t … 10000·t + 9999 — while each of the eight parameter arrays is one block
  held for all ten points.  A body's entry (p, q) depends only on row p of its node blocks, so what point `t` writes
  back is block `t` of the layer's whole-array function; the ten blocks tile the 100000 rows, hence the output array
  ends holding that function everywhere.
-/
import proofs.«162577_j87101936763026_1_alg».proof.Proof.Gen.KernelIdeal.Frame
import proofs.«162577_j87101936763026_1_alg».proof.Proof.Payload
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Gin Cert.Gin.Payload

variable (V : (c : Dev nD) → (b : Ref sig .tc) → Buf (Elt Ideal) ((c : Thread nD τ).loc b))

theorem origin : (![0, 0] : Fin 2 → Nat) = fun _ => 0 := funext fun a => by fin_cases a <;> rfl

/-- The printed index maps, decided over the ten points: the node windows and the output sit at block row `t`,
    every parameter window at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_10.index t (0 : Fin 2) = t.val ∧ win1_10.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ t.val < 10 :=
  (by decide +kernel : ∀ t : Fin grid1.N, _)

/-- Row `p` of block `t` is row 10000·t + p of the array. -/
def rowOf (t : Fin cfg1.N) (p : Fin 10000) : Fin 100000 :=
  ⟨t.val * 10000 + p.val, by have := (idx_facts t).2.2.2.2.2.2.2.2.2.2.2; have := p.isLt; omega⟩

/-- Entry (p, k) of node window 0's block at point `t`. -/
theorem blk0_apply (c : Dev nD) (t : Fin cfg1.N) (p : Fin 10000) (k : Fin 64) :
    (iblk1 V c 0 t : Vec Ideal S10000x64 .f32) (ix2 p k) = (V c main_v20 : Mat 100000 64) (ix2 (rowOf t p) k) := by
  obtain ⟨⟨e0, e1⟩, -⟩ := idx_facts t
  show V c main_v20 (((cfg1.win 0).blk t).view.emb (ix2 p k)) = V c main_v20 (ix2 (rowOf t p) k)
  refine congrArg (V c main_v20) (funext fun a => Fin.ext ?_)
  match a with
  | ⟨0, _⟩ => show win1_0.index t (0 : Fin 2) * 10000 + 1 * p.val = t.val * 10000 + p.val; omega
  | ⟨1, _⟩ => show win1_0.index t (1 : Fin 2) * 64 + 1 * k.val = k.val; omega

/-- Entry (p, k) of node window 1's block at point `t`. -/
theorem blk1_apply (c : Dev nD) (t : Fin cfg1.N) (p : Fin 10000) (k : Fin 64) :
    (iblk1 V c 1 t : Vec Ideal S10000x64 .f32) (ix2 p k) = (V c main_v30 : Mat 100000 64) (ix2 (rowOf t p) k) := by
  obtain ⟨-, ⟨e0, e1⟩, -⟩ := idx_facts t
  show V c main_v30 (((cfg1.win 1).blk t).view.emb (ix2 p k)) = V c main_v30 (ix2 (rowOf t p) k)
  refine congrArg (V c main_v30) (funext fun a => Fin.ext ?_)
  match a with
  | ⟨0, _⟩ => show win1_1.index t (0 : Fin 2) * 10000 + 1 * p.val = t.val * 10000 + p.val; omega
  | ⟨1, _⟩ => show win1_1.index t (1 : Fin 2) * 64 + 1 * k.val = k.val; omega

/-- Parameter window 2's one block is its whole array. -/
theorem blk2_eq (c : Dev nD) (t : Fin cfg1.N) :
    (iblk1 V c 2 t : Vec Ideal S64x64 .f32) = V c main_arg10 := by
  obtain ⟨e0, e1⟩ := (idx_facts t).2.2.2.1
  funext y
  show V c main_arg10 (((cfg1.win 2).blk t).view.emb y) = V c main_arg10 y
  refine congrArg (V c main_arg10) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Parameter window 3's one block is its whole array. -/
theorem blk3_eq (c : Dev nD) (t : Fin cfg1.N) :
    (iblk1 V c 3 t : Vec Ideal S1x64 .f32) = V c main_v31 := by
  obtain ⟨e0, e1⟩ := (idx_facts t).2.2.2.2.1
  funext y
  show V c main_v31 (((cfg1.win 3).blk t).view.emb y) = V c main_v31 y
  refine congrArg (V c main_v31) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Parameter window 4's one block is its whole array. -/
theorem blk4_eq (c : Dev nD) (t : Fin cfg1.N) :
    (iblk1 V c 4 t : Vec Ideal S1x64 .f32) = V c main_v32 := by
  obtain ⟨e0, e1⟩ := (idx_facts t).2.2.2.2.2.1
  funext y
  show V c main_v32 (((cfg1.win 4).blk t).view.emb y) = V c main_v32 y
  refine congrArg (V c main_v32) (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

/-- Parameter window 5's one block is its whole array. -/
theorem blk5_eq (c : Dev nD) (t : Fin cfg1.N) :
    (iblk1 V c 5 t : Vec Ideal S1x64 .f32) = V c main_v33 := by
  obtain ⟨e0, e1⟩ := (idx_facts t).2.2.2.2.2.2.1
  funext y
  show V c main_v33 (((cfg1.win 5).blk t).view.emb y) = V c main_v33 y
  refine congrArg (V c main_v33) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- Parameter window 6's one block is its whole array. -/
theorem blk6_eq (c : Dev nD) (t : Fin cfg1.N) :
    (iblk1 V c 6 t : Vec Ideal S1x64 .f32) = V c main_v34 := by
  obtain ⟨e0, e1⟩ := (idx_facts t).2.2.2.2.2.2.2.1
  funext y
  show V c main_v34 (((cfg1.win 6).blk t).view.emb y) = V c main_v34 y
  refine congrArg (V c main_v34) (funext fun a => Fin.ext ?_)
  match a with
  | ⟨0, _⟩ => show win1_6.index t (0 : Fin 2) * 1 + 1 * (y 0).val = (y 0).val; omega
  | ⟨1, _⟩ => show win1_6.index t (1 : Fin 2) * 64 + 1 * (y 1).val = (y 1).val; omega

/-- Parameter window 7's one block is its whole array. -/
theorem blk7_eq (c : Dev nD) (t : Fin cfg1.N) :
    (iblk1 V c 7 t : Vec Ideal S1x64 .f32) = V c main_v35 := by
  obtain ⟨e0, e1⟩ := (idx_facts t).2.2.2.2.2.2.2.2.1
  funext y
  show V c main_v35 (((cfg1.win 7).blk t).view.emb y) = V c main_v35 y
  refine congrArg (V c main_v35) (funext fun a => Fin.ext ?_)
  match a with
  | ⟨0, _⟩ => show win1_7.index t (0 : Fin 2) * 1 + 1 * (y 0).val = (y 0).val; omega
  | ⟨1, _⟩ => show win1_7.index t (1 : Fin 2) * 64 + 1 * (y 1).val = (y 1).val; omega

/-- Parameter window 8's one block is its whole array. -/
theorem blk8_eq (c : Dev nD) (t : Fin cfg1.N) :
    (iblk1 V c 8 t : Vec Ideal S64x40 .f32) = V c main_arg16 := by
  obtain ⟨e0, e1⟩ := (idx_facts t).2.2.2.2.2.2.2.2.2.1
  funext y
  show V c main_arg16 (((cfg1.win 8).blk t).view.emb y) = V c main_arg16 y
  refine congrArg (V c main_arg16) (funext fun a => Fin.ext ?_)
  match a with
  | ⟨0, _⟩ => show win1_8.index t (0 : Fin 2) * 64 + 1 * (y 0).val = (y 0).val; omega
  | ⟨1, _⟩ => show win1_8.index t (1 : Fin 2) * 40 + 1 * (y 1).val = (y 1).val; omega

/-- Parameter window 9's one block is its whole array. -/
theorem blk9_eq (c : Dev nD) (t : Fin cfg1.N) :
    (iblk1 V c 9 t : Vec Ideal S1x40 .f32) = V c main_v36 := by
  obtain ⟨e0, e1⟩ := (idx_facts t).2.2.2.2.2.2.2.2.2.2.1
  funext y
  show V c main_v36 (((cfg1.win 9).blk t).view.emb y) = V c main_v36 y
  refine congrArg (V c main_v36) (funext fun a => Fin.ext ?_)
  match a with
  | ⟨0, _⟩ => show win1_9.index t (0 : Fin 2) * 1 + 1 * (y 0).val = (y 0).val; omega
  | ⟨1, _⟩ => show win1_9.index t (1 : Fin 2) * 40 + 1 * (y 1).val = (y 1).val; omega

/-- The layer's whole-array function of the arrays the region finds. -/
def result (c : Dev nD) : Mat 100000 40 :=
  layer1 (V c main_v20) (V c main_v30) (V c main_arg10) (V c main_v31) (V c main_v32) (V c main_v33) (V c main_v34) (V c main_v35)
    (V c main_arg16) (V c main_v36)

/-- What point `t` writes back is block `t` of the layer's whole-array function. -/
theorem flushed_eq (c : Dev nD) (t : Fin cfg1.N) :
    (dat1 V c).flushed 10 t = ((cfg1.win 10).blk t).view.read (Elt Ideal) (result V c) := by
  show (cfg1.win 10).cut (grid1.coords t) ((dat1 V c).after 10 t) = _
  rw [after1_10]
  unfold out1_10
  rw [View.canon_unit_zero origin]
  simp only [View.ld_unit_zero (S := S10000x64) origin, View.ld_unit_zero (S := S64x64) origin,
    View.ld_unit_zero (S := S1x64) origin, View.ld_unit_zero (S := S64x40) origin, View.ld_unit_zero (S := S1x40) origin]
  rw [blk2_eq V c t, blk3_eq V c t, blk4_eq V c t, blk5_eq V c t, blk6_eq V c t, blk7_eq V c t, blk8_eq V c t, blk9_eq V c t]
  funext j
  obtain ⟨p, q, rfl⟩ : ∃ (p : Fin 10000) (q : Fin 40), j = ix2 p q := ⟨j 0, j 1, eq_ix2 j⟩
  obtain ⟨-, -, ⟨e0, e1⟩, -⟩ := idx_facts t
  have hemb : ((cfg1.win 10).blk t).view.emb (ix2 p q) = ix2 (rowOf t p) q := funext fun a => Fin.ext (by
    match a with
    | ⟨0, _⟩ => show win1_10.index t (0 : Fin 2) * 10000 + 1 * p.val = t.val * 10000 + p.val; omega
    | ⟨1, _⟩ => show win1_10.index t (1 : Fin 2) * 40 + 1 * q.val = q.val; omega)
  show k1_pay1 (k1_pay2 (iblk1 V c 1 t) (iblk1 V c 0 t) (V c main_arg10) (V c main_v31) (V c main_v34) (V c main_v35) (V c main_v32) (V c main_v33) (V c main_arg16)) (V c main_v36) (ix2 p q)
    = result V c (((cfg1.win 10).blk t).view.emb (ix2 p q))
  rw [hemb]
  refine (pay1_apply _ _ _ _ _ _ _ _ _ _ p q).trans ?_
  have hx : row (iblk1 V c 0 t : Vec Ideal S10000x64 .f32) p = row (V c main_v20 : Mat 100000 64) (rowOf t p) :=
    funext fun k => blk0_apply V c t p k
  have ha : row (iblk1 V c 1 t : Vec Ideal S10000x64 .f32) p = row (V c main_v30 : Mat 100000 64) (rowOf t p) :=
    funext fun k => blk1_apply V c t p k
  rw [hx, ha]
  rfl

/-- An index of the output array is in point `t`'s block iff each coordinate is in the block's range. -/
theorem mem_blk (t : Fin cfg1.N) (i : S100000x40.Idx) :
    i ∈ ((cfg1.win 10).blk t).view.set ↔ ∀ a : Fin 2, win1_10.index t a * S10000x40.size a ≤ (i a).val
      ∧ (i a).val < win1_10.index t a * S10000x40.size a + S10000x40.size a := by
  show i ∈ ((View.whole main_v37).slice (win1_10.rect t)).set ↔ _
  rw [View.set_slice_whole, Rect.mem_set_unit]
  exact Iff.rfl

/-- Every block row is some point's. -/
theorem idx_onto : ∀ q0 : Fin 10, ∃ t : Fin cfg1.N, win1_10.index t = ![q0.val, 0] :=
  (by decide +kernel : ∀ q0 : Fin 10, ∃ t : Fin grid1.N, win1_10.index t = ![q0.val, 0])

/-- The ten blocks tile the output array: row `r` lies in the block of the point with block row `r / 10000`. -/
theorem cover (i : S100000x40.Idx) :
    ∃ t : Fin cfg1.N, (cfg1.win 10).flush t = true ∧ i ∈ ((cfg1.win 10).blk t).view.set := by
  have hi0 : (i 0).val < 100000 := (i 0).isLt
  have hi1 : (i 1).val < 40 := (i 1).isLt
  obtain ⟨t, ht⟩ := idx_onto ⟨(i 0).val / 10000, by omega⟩
  have q0 : win1_10.index t (0 : Fin 2) = (i 0).val / 10000 := congrFun ht 0
  have q1 : win1_10.index t (1 : Fin 2) = 0 := congrFun ht 1
  refine ⟨t, flush1_10 t, ?_⟩
  rw [mem_blk]
  intro a
  match a with
  | ⟨0, _⟩ => show win1_10.index t (0 : Fin 2) * 10000 ≤ (i 0).val ∧ (i 0).val < win1_10.index t (0 : Fin 2) * 10000 + 10000; omega
  | ⟨1, _⟩ => show win1_10.index t (1 : Fin 2) * 40 ≤ (i 1).val ∧ (i 1).val < win1_10.index t (1 : Fin 2) * 40 + 40; omega

/-- The output array after the region: the layer of the arrays the region finds. -/
theorem final (c : Dev nD) : (dat1 V c).arrAt 10 cfg1.N = result V c :=
  (dat1 V c).arrAt_eq_of_cover 10 (result V c) (fun t _ => flushed_eq V c t) (cover)

end Cert.KernelIdeal.Region1

end
-- ==== Proof.Network.lean ====
/-
  The whole network as one function of the eighteen arguments.

  The host computes the neighbour sums: for every edge the row of the source node is gathered (a negative node number
  is first shifted up by 100000, as the host's indexing does) and added into the row of the edge's destination node,
  starting from zeros.  Both programs state this with the same gather and scatter-add, so the sum is kept as that
  term and never read at an index.  Each per-feature vector is reshaped to a row [1, 64] (or [1, 40]).
  The network is the second layer applied to the first layer's output and to the neighbour sums of that output.
-/
import proofs.«162577_j87101936763026_1_alg».proof.KernelIdeal
import proofs.«162577_j87101936763026_1_alg».proof.Proof.Gen.KernelIdeal
import proofs.«162577_j87101936763026_1_alg».proof.Proof.Layers

noncomputable section

namespace Cert.Gin

open Idealize.ShloMosaic Cert.KernelIdeal Cert.KernelIdeal.Gen

/-- The edge list [2, 1600000] of node numbers. -/
abbrev Edges := (⟨S2x1600000, .i32⟩ : BufTy).Contents (Elt Ideal)

/-- The source node of every edge: row 0 of the edge list. -/
def srcOf (ei : Edges) : IVec S1600000 32 :=
  shapeCast S1600000 (extractStridedSlice S1x1600000 ![0, 0] ei slices_S2x1600000_S1x1600000_0_0) shapeCasts_S1x1600000_S1600000

/-- The destination node of every edge: row 1 of the edge list. -/
def dstOf (ei : Edges) : IVec S1600000 32 :=
  shapeCast S1600000 (extractStridedSlice S1x1600000 ![1, 0] ei slices_S2x1600000_S1x1600000_1_0) shapeCasts_S1x1600000_S1600000

/-- The neighbour sums of the node array `h`: the rows gathered at the edges' sources, added into zeros at the edges'
    destinations. -/
def aggregate (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- A vector of 64 features as a row [1, 64]. -/
def asRow64 (v : FVec Ideal S64 .f32) : FVec Ideal S1x64 .f32 := shapeCast S1x64 v shapeCasts_S64_S1x64
/-- A vector of 40 features as a row [1, 40]. -/
def asRow40 (v : FVec Ideal S40 .f32) : FVec Ideal S1x40 .f32 := shapeCast S1x40 v shapeCasts_S40_S1x40

/-- The first layer's output: a function of the node features, the edges and the first layer's parameters. -/
def firstLayer (x : FVec Ideal S100000x64 .f32) (ei : Edges) (w1 : FVec Ideal S64x64 .f32) (b1 g bt mu var : FVec Ideal S64 .f32)
    (w2 : FVec Ideal S64x64 .f32) (b2 : FVec Ideal S64 .f32) : FVec Ideal S100000x64 .f32 :=
  layer0 x (aggregate x (srcOf ei) (dstOf ei)) w1 (asRow64 b1) (asRow64 g) (asRow64 bt) (asRow64 mu) (asRow64 var) w2 (asRow64 b2)

/-- The network's output. -/
def network (x : FVec Ideal S100000x64 .f32) (ei : Edges) (w1 : FVec Ideal S64x64 .f32) (b1 g bt mu var : FVec Ideal S64 .f32)
    (w2 : FVec Ideal S64x64 .f32) (b2 : FVec Ideal S64 .f32)
    (w1' : FVec Ideal S64x64 .f32) (b1' g' bt' mu' var' : FVec Ideal S64 .f32) (w2' : FVec Ideal S64x40 .f32) (b2' : FVec Ideal S40 .f32) :
    FVec Ideal S100000x40 .f32 :=
  layer1 (firstLayer x ei w1 b1 g bt mu var w2 b2)
    (aggregate (firstLayer x ei w1 b1 g bt mu var w2 b2) (srcOf ei) (dstOf ei))
    w1' (asRow64 b1') (asRow64 g') (asRow64 bt') (asRow64 mu') (asRow64 var') w2' (asRow40 b2')

end Cert.Gin

end
-- ==== Proof.KernelValue.lean ====
/-
  The kernel's result array as the network's function of the arguments.

  The program is four stretches: host operations, the first region, host operations, the second region.  The
  contents of every buffer are followed through them.  The first stretch leaves the arguments alone, computes the
  edges' source and destination nodes and the neighbour sums of the node features, and reshapes the first layer's
  per-feature vectors to rows; the first region then leaves the first layer's output in its output array; the
  second stretch computes the neighbour sums of that output (with the same source and destination nodes) and
  reshapes the second layer's vectors; the second region leaves the second layer's output — the network's — in the
  result array.
-/
import proofs.«162577_j87101936763026_1_alg».proof.Proof.Gen.KernelIdeal.Frame
import proofs.«162577_j87101936763026_1_alg».proof.Proof.Region0
import proofs.«162577_j87101936763026_1_alg».proof.Proof.Region1
import proofs.«162577_j87101936763026_1_alg».proof.Proof.Network
import Idealize.ShloMosaic.Lib.StableHlo.Run

set_option maxRecDepth 16384

noncomputable section

namespace Cert.KernelIdeal.Whole

open Idealize.ShloMosaic Idealize.ShloMosaic.TcCoe Idealize.SL.Sem Idealize.ShloMosaic.StableHlo
open Cert.KernelIdeal Cert.KernelIdeal.Gen Cert.Gin

variable (m : (ℓ : Loc nD τ sig) → Buf (Elt Ideal) ℓ) (ρ : Dev nD → PrngReg)

/-! ## After the first stretch of host operations -/

theorem V1_arg0 (c : Dev nD) : V1 m ρ c main_arg0 = m ((c : Thread nD τ).loc main_arg0) := by
  show StableHlo.after hostOps0 (W0 m ρ c) (Proc.devRef .tc main_arg0) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg8 (c : Dev nD) : V1 m ρ c main_arg8 = m ((c : Thread nD τ).loc main_arg8) := by
  show StableHlo.after hostOps0 (W0 m ρ c) (Proc.devRef .tc main_arg8) = _
  after_results
/-- The edges' source nodes. -/
theorem V1_v1 (c : Dev nD) : V1 m ρ c main_v1 = srcOf (m ((c : Thread nD τ).loc main_arg1)) := by
  show StableHlo.after hostOps0 (W0 m ρ c) (Proc.devRef .tc main_v1) = _
  after_results; rfl
/-- The edges' destination nodes. -/
theorem V1_v3 (c : Dev nD) : V1 m ρ c main_v3 = dstOf (m ((c : Thread nD τ).loc main_arg1)) := by
  show StableHlo.after hostOps0 (W0 m ρ c) (Proc.devRef .tc main_v3) = _
  after_results; rfl
/-- The neighbour sums of the node features. -/
theorem V1_v13 (c : Dev nD) : V1 m ρ c main_v13
    = aggregate (m ((c : Thread nD τ).loc main_arg0)) (srcOf (m ((c : Thread nD τ).loc main_arg1))) (dstOf (m ((c : Thread nD τ).loc main_arg1))) := by
  show StableHlo.after hostOps0 (W0 m ρ c) (Proc.devRef .tc main_v13) = _
  after_results; rfl
theorem V1_v14 (c : Dev nD) : V1 m ρ c main_v14 = asRow64 (m ((c : Thread nD τ).loc main_arg3)) := by
  show StableHlo.after hostOps0 (W0 m ρ c) (Proc.devRef .tc main_v14) = _
  after_results; rfl
theorem V1_v15 (c : Dev nD) : V1 m ρ c main_v15 = asRow64 (m ((c : Thread nD τ).loc main_arg4)) := by
  show StableHlo.after hostOps0 (W0 m ρ c) (Proc.devRef .tc main_v15) = _
  after_results; rfl
theorem V1_v16 (c : Dev nD) : V1 m ρ c main_v16 = asRow64 (m ((c : Thread nD τ).loc main_arg5)) := by
  show StableHlo.after hostOps0 (W0 m ρ c) (Proc.devRef .tc main_v16) = _
  after_results; rfl
theorem V1_v17 (c : Dev nD) : V1 m ρ c main_v17 = asRow64 (m ((c : Thread nD τ).loc main_arg6)) := by
  show StableHlo.after hostOps0 (W0 m ρ c) (Proc.devRef .tc main_v17) = _
  after_results; rfl
theorem V1_v18 (c : Dev nD) : V1 m ρ c main_v18 = asRow64 (m ((c : Thread nD τ).loc main_arg7)) := by
  show StableHlo.after hostOps0 (W0 m ρ c) (Proc.devRef .tc main_v18) = _
  after_results; rfl
theorem V1_v19 (c : Dev nD) : V1 m ρ c main_v19 = asRow64 (m ((c : Thread nD τ).loc main_arg9)) := by
  show StableHlo.after hostOps0 (W0 m ρ c) (Proc.devRef .tc main_v19) = _
  after_results; rfl

/-- The first layer's output, as a function of the launch memory. -/
def hidden0 (c : Dev nD) : FVec Ideal S100000x64 .f32 :=
  firstLayer (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-! ## After the first region -/

/-- The first region's output array holds the first layer's output. -/
theorem W2_v20 (c : Dev nD) : W2 m ρ c (Proc.devRef .tc main_v20) = hidden0 m c := by
  refine (W2_arr m ρ c 10).trans ((Region0.final (V1 m ρ) c).trans ?_)
  unfold Region0.result hidden0 firstLayer
  rw [V1_arg0, V1_arg2, V1_arg8, V1_v13, V1_v14, V1_v15, V1_v16, V1_v17, V1_v18, V1_v19]

/-! ## After the second stretch of host operations -/

/-- The edges' source nodes are still where the first stretch left them. -/
theorem W2_v1 (c : Dev nD) : W2 m ρ c (Proc.devRef .tc main_v1) = srcOf (m ((c : Thread nD τ).loc main_arg1)) :=
  (W2_of_ne m ρ c main_v1 (by decide)).trans (V1_v1 m ρ c)
/-- So are their destination nodes. -/
theorem W2_v3 (c : Dev nD) : W2 m ρ c (Proc.devRef .tc main_v3) = dstOf (m ((c : Thread nD τ).loc main_arg1)) :=
  (W2_of_ne m ρ c main_v3 (by decide)).trans (V1_v3 m ρ c)
theorem W2_arg10 (c : Dev nD) : W2 m ρ c (Proc.devRef .tc main_arg10) = m ((c : Thread nD τ).loc main_arg10) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results)
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results)
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results)
theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results)
theorem W2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results)
theorem W2_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results)
theorem W2_arg17 (c : Dev nD) : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results)

theorem V3_v20 (c : Dev nD) : V3 m ρ c main_v20 = hidden0 m c := by
  show StableHlo.after hostOps1 (W2 m ρ c) (Proc.devRef .tc main_v20) = _
  after_results
  exact W2_v20 m ρ c
/-- The neighbour sums of the first layer's output. -/
theorem V3_v30 (c : Dev nD) : V3 m ρ c main_v30
    = aggregate (hidden0 m c) (srcOf (m ((c : Thread nD τ).loc main_arg1))) (dstOf (m ((c : Thread nD τ).loc main_arg1))) := by
  show StableHlo.after hostOps1 (W2 m ρ c) (Proc.devRef .tc main_v30) = _
  after_results
  rw [W2_v20, W2_v1, W2_v3]
  rfl
theorem V3_arg10 (c : Dev nD) : V3 m ρ c main_arg10 = m ((c : Thread nD τ).loc main_arg10) := by
  show StableHlo.after hostOps1 (W2 m ρ c) (Proc.devRef .tc main_arg10) = _
  after_results
  exact W2_arg10 m ρ c
theorem V3_arg16 (c : Dev nD) : V3 m ρ c main_arg16 = m ((c : Thread nD τ).loc main_arg16) := by
  show StableHlo.after hostOps1 (W2 m ρ c) (Proc.devRef .tc main_arg16) = _
  after_results
  exact W2_arg16 m ρ c
theorem V3_v31 (c : Dev nD) : V3 m ρ c main_v31 = asRow64 (m ((c : Thread nD τ).loc main_arg11)) := by
  show StableHlo.after hostOps1 (W2 m ρ c) (Proc.devRef .tc main_v31) = _
  after_results
  rw [W2_arg11]
  rfl
theorem V3_v32 (c : Dev nD) : V3 m ρ c main_v32 = asRow64 (m ((c : Thread nD τ).loc main_arg12)) := by
  show StableHlo.after hostOps1 (W2 m ρ c) (Proc.devRef .tc main_v32) = _
  after_results
  rw [W2_arg12]
  rfl
theorem V3_v33 (c : Dev nD) : V3 m ρ c main_v33 = asRow64 (m ((c : Thread nD τ).loc main_arg13)) := by
  show StableHlo.after hostOps1 (W2 m ρ c) (Proc.devRef .tc main_v33) = _
  after_results
  rw [W2_arg13]
  rfl
theorem V3_v34 (c : Dev nD) : V3 m ρ c main_v34 = asRow64 (m ((c : Thread nD τ).loc main_arg14)) := by
  show StableHlo.after hostOps1 (W2 m ρ c) (Proc.devRef .tc main_v34) = _
  after_results
  rw [W2_arg14]
  rfl
theorem V3_v35 (c : Dev nD) : V3 m ρ c main_v35 = asRow64 (m ((c : Thread nD τ).loc main_arg15)) := by
  show StableHlo.after hostOps1 (W2 m ρ c) (Proc.devRef .tc main_v35) = _
  after_results
  rw [W2_arg15]
  rfl
theorem V3_v36 (c : Dev nD) : V3 m ρ c main_v36 = asRow40 (m ((c : Thread nD τ).loc main_arg17)) := by
  show StableHlo.after hostOps1 (W2 m ρ c) (Proc.devRef .tc main_v36) = _
  after_results
  rw [W2_arg17]
  rfl

/-! ## After the second region -/

/-- The network's output, as a function of the launch memory. -/
def output (c : Dev nD) : FVec Ideal S100000x40 .f32 :=
  network (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15))
      (m ((c : Thread nD τ).loc main_arg16))
      (m ((c : Thread nD τ).loc main_arg17))

/-- The result array holds the network's output. -/
theorem W4_v37 (c : Dev nD) : W4 m ρ c (Proc.devRef .tc main_v37) = output m c := by
  refine (W4_arr m ρ c 10).trans ((Region1.final (V3 m ρ) c).trans ?_)
  unfold Region1.result output network
  rw [V3_v20, V3_v30, V3_arg10, V3_arg16, V3_v31, V3_v32, V3_v33, V3_v34, V3_v35, V3_v36]
  rfl

/-! ## The run -/

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt Ideal) ℕ (UR sig nD τ) ℕ

set_option backward.isDefEq.respectTransparency.types false in
/-- Every weakly fair execution of the program terminates, nothing faulting, with the result array at the network's
    output and the argument arrays as launched: the program's four segments run from the launch memory, and the
    final contents of every buffer are those followed above. -/
theorem run : θ_run defs (onTc (τ := τ) (main (F := Ideal))) ⟨m, fun _ => 0, ρ⟩ (fun r => ∀ c : Dev nD,
      r.2.mem ((c.tc : Thread nD τ).loc main_v37) = output m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v37 (by decide))).trans (W4_v37 m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c),
       (h c _ (mem_uc main_arg16 (by decide))).trans (W4_main_arg16 m ρ c),
       (h c _ (mem_uc main_arg17 (by decide))).trans (W4_main_arg17 m ρ c)⟩)

end Cert.KernelIdeal.Whole

end
-- ==== Proof.RefValue.lean ====
/-
  The reference's operations, read at one entry.

  The reference works on all 100000 nodes at once.  Its matrix products contract over the 64 features, so entry
  (p, q) is the sum over k of left (p, k) · right (k, q); each per-feature vector is broadcast first to a row and
  then down all rows, which reads the vector at the column; the row maximum and the row sum of its log-softmax run
  over a node's 40 logits, and the extra maximum it takes with −∞ changes nothing, because a maximum folded from
  −∞ is never below −∞.  Hence each stage at (p, q) is the layer's formula for node p.
-/
import proofs.«162577_j87101936763026_1_alg».proof.ReferenceIdeal
import proofs.«162577_j87101936763026_1_alg».proof.Proof.Gen.ReferenceIdeal
import proofs.«162577_j87101936763026_1_alg».proof.Proof.Layers
import proofs.«162577_j87101936763026_1_alg».proof.Proof.LibHostMaxForms
import Idealize.ShloMosaic.Lib.ValueLayout
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.Gin

/-! ## The two matrix products at an entry -/

/-- Coordinate 0 of the left operand's index: the output's row. -/
theorem lhs64_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl
/-- Coordinate 1 of the right operand's index: the output's column. -/
theorem rhs64_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl
/-- The host's product of the node array with a 64 × 64 matrix: entry (p, q) is the sum over the 64 contracted
    features. -/
theorem hostDot64_apply (l : FVec Ideal S100000x64 .f32) (r : FVec Ideal S64x64 .f32) (p : Fin 100000) (q : Fin 64) :
    Host.dotGeneral dot_S100000x64_S64x64_S100000x64_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx (ix2 p q) ((contrEquiv1 dot_S100000x64_S64x64_S100000x64_1_0_0_1_n_n 64 rfl rfl).symm k) = ix2 p k :=
    funext fun a => Fin.ext (by
      match a with
      | ⟨0, _⟩ => exact lhs64_0 _ _
      | ⟨1, _⟩ => exact (dot_S100000x64_S64x64_S100000x64_1_0_0_1_n_n.lhsIdx_val_of_single rfl _ _).trans hk)
  have er : dot_S100000x64_S64x64_S100000x64_1_0_0_1_n_n.rhsIdx (ix2 p q) ((contrEquiv1 dot_S100000x64_S64x64_S100000x64_1_0_0_1_n_n 64 rfl rfl).symm k) = ix2 k q :=
    funext fun a => Fin.ext (by
      match a with
      | ⟨0, _⟩ => exact (dot_S100000x64_S64x64_S100000x64_1_0_0_1_n_n.rhsIdx_val_of_single rfl _ _).trans hk
      | ⟨1, _⟩ => exact rhs64_1 _ _)
  rw [el, er]

/-- Coordinate 0 of the left operand's index: the output's row. -/
theorem lhs40_0 (i : S100000x40.Idx) (q : dot_S100000x64_S64x40_S100000x40_1_0_0_1_n_n.contr.Idx) : (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide),
    dif_pos (show (0 : Fin S100000x64.rank) ∈ dot_S100000x64_S64x40_S100000x40_1_0_0_1_n_n.lhsNonContracting by decide)]
  rfl
/-- Coordinate 1 of the right operand's index: the output's column. -/
theorem rhs40_1 (i : S100000x40.Idx) (q : dot_S100000x64_S64x40_S100000x40_1_0_0_1_n_n.contr.Idx) : (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide),
    dif_pos (show (1 : Fin S64x40.rank) ∈ dot_S100000x64_S64x40_S100000x40_1_0_0_1_n_n.rhsNonContracting by decide)]
  rfl
/-- The host's product of the node array with a 64 × 40 matrix: entry (p, q) is the sum over the 64 contracted
    features. -/
theorem hostDot40_apply (l : FVec Ideal S100000x64 .f32) (r : FVec Ideal S64x40 .f32) (p : Fin 100000) (q : Fin 40) :
    Host.dotGeneral dot_S100000x64_S64x40_S100000x40_1_0_0_1_n_n none l r (ix2 p q) = ∑ k : Fin 64, l (ix2 p k) * r (ix2 k q) := by
  simp only [Host.dotGeneral]
  rw [Ideal.dotGeneral_apply, ← Equiv.sum_comp (contrEquiv1 dot_S100000x64_S64x40_S100000x40_1_0_0_1_n_n 64 rfl rfl).symm]
  refine Finset.sum_congr rfl fun k _ => ?_
  have hk := contrEquiv1_symm_val dot_S100000x64_S64x40_S100000x40_1_0_0_1_n_n 64 rfl rfl k
  have el : dot_S100000x64_S64x40_S100000x40_1_0_0_1_n_n.lhsIdx (ix2 p q) ((contrEquiv1 dot_S100000x64_S64x40_S100000x40_1_0_0_1_n_n 64 rfl rfl).symm k) = ix2 p k :=
    funext fun a => Fin.ext (by
      match a with
      | ⟨0, _⟩ => exact lhs40_0 _ _
      | ⟨1, _⟩ => exact (dot_S100000x64_S64x40_S100000x40_1_0_0_1_n_n.lhsIdx_val_of_single rfl _ _).trans hk)
  have er : dot_S100000x64_S64x40_S100000x40_1_0_0_1_n_n.rhsIdx (ix2 p q) ((contrEquiv1 dot_S100000x64_S64x40_S100000x40_1_0_0_1_n_n 64 rfl rfl).symm k) = ix2 k q :=
    funext fun a => Fin.ext (by
      match a with
      | ⟨0, _⟩ => exact (dot_S100000x64_S64x40_S100000x40_1_0_0_1_n_n.rhsIdx_val_of_single rfl _ _).trans hk
      | ⟨1, _⟩ => exact rhs40_1 _ _)
  rw [el, er]

/-! ## The broadcasts -/

/-- A vector of 64 features as a row [1, 64], read at (0, k). -/
def rowOf64 (v : FVec Ideal S64 .f32) : Mat 1 64 := fun i => v (ix1 (i 1))
/-- A vector of 40 features as a row [1, 40], read at (0, k). -/
def rowOf40 (v : FVec Ideal S40 .f32) : Mat 1 40 := fun i => v (ix1 (i 1))

/-- A vector of 64 features broadcast to a row and then down the 100000 rows reads, at (r, k), the vector at k. -/
theorem rows64_apply (v : FVec Ideal S64 .f32) (r : Fin 100000) (k : Fin 64) :
    broadcastInDim S100000x64 ![0, 1] bcast_S1x64_S100000x64_0_1 (broadcastInDim S1x64 ![1] bcast_S64_S1x64_1 v) (ix2 r k)
      = rowOf64 v (ix2 0 k) :=
  (broadcastInDim_apply _ bcast_S1x64_S100000x64_0_1 _ (ix2 r k) (ix2 (0 : Fin 1) k) (fun a => match a with
    | ⟨0, _⟩ => by show (0 : Nat) = if (1 : Nat) = 1 then 0 else r.val; rw [if_pos rfl]
    | ⟨1, _⟩ => by show k.val = if (64 : Nat) = 1 then 0 else k.val; rw [if_neg (by decide)])).trans
  (broadcastInDim_apply _ bcast_S64_S1x64_1 v (ix2 (0 : Fin 1) k) (ix1 k) (fun a => match a with
    | ⟨0, _⟩ => by show k.val = if (64 : Nat) = 1 then 0 else k.val; rw [if_neg (by decide)]))

/-- A vector of 40 features broadcast to a row and then down the 100000 rows reads, at (r, k), the vector at k. -/
theorem rows40_apply (v : FVec Ideal S40 .f32) (r : Fin 100000) (k : Fin 40) :
    broadcastInDim S100000x40 ![0, 1] bcast_S1x40_S100000x40_0_1 (broadcastInDim S1x40 ![1] bcast_S40_S1x40_1 v) (ix2 r k)
      = rowOf40 v (ix2 0 k) :=
  (broadcastInDim_apply _ bcast_S1x40_S100000x40_0_1 _ (ix2 r k) (ix2 (0 : Fin 1) k) (fun a => match a with
    | ⟨0, _⟩ => by show (0 : Nat) = if (1 : Nat) = 1 then 0 else r.val; rw [if_pos rfl]
    | ⟨1, _⟩ => by show k.val = if (40 : Nat) = 1 then 0 else k.val; rw [if_neg (by decide)])).trans
  (broadcastInDim_apply _ bcast_S40_S1x40_1 v (ix2 (0 : Fin 1) k) (ix1 k) (fun a => match a with
    | ⟨0, _⟩ => by show k.val = if (40 : Nat) = 1 then 0 else k.val; rw [if_neg (by decide)]))

/-- A column [100000, 1] broadcast across the 40 lanes reads, at (p, q), the column at p. -/
theorem lanes40_apply (v : FVec Ideal S100000x1 .f32) (p : Fin 100000) (q : Fin 40) :
    broadcastInDim S100000x40 ![0, 1] bcast_S100000x1_S100000x40_0_1 v (ix2 p q) = v (ix2 p (0 : Fin 1)) :=
  broadcastInDim_apply _ bcast_S100000x1_S100000x40_0_1 v (ix2 p q) (ix2 p (0 : Fin 1)) (fun a => match a with
    | ⟨0, _⟩ => by show p.val = if (100000 : Nat) = 1 then 0 else p.val; rw [if_neg (by decide)]
    | ⟨1, _⟩ => by show (0 : Nat) = if (1 : Nat) = 1 then 0 else q.val; rw [if_pos rfl])

/-- A per-node value as a column [100000, 1] reads, at (p, 0), the value of node p. -/
theorem column_apply (v : FVec Ideal S100000 .f32) (p : Fin 100000) :
    broadcastInDim S100000x1 ![0] bcast_S100000_S100000x1_0 v (ix2 p (0 : Fin 1)) = v (ix1 p) :=
  broadcastInDim_apply _ bcast_S100000_S100000x1_0 v (ix2 p (0 : Fin 1)) (ix1 p) (fun a => match a with
    | ⟨0, _⟩ => by show p.val = if (100000 : Nat) = 1 then 0 else p.val; rw [if_neg (by decide)])

/-- A per-node value broadcast to a column and then across the 40 lanes reads, at (p, q), the value of node p. -/
theorem cols40_apply (v : FVec Ideal S100000 .f32) (p : Fin 100000) (q : Fin 40) :
    broadcastInDim S100000x40 ![0, 1] bcast_S100000x1_S100000x40_0_1 (broadcastInDim S100000x1 ![0] bcast_S100000_S100000x1_0 v) (ix2 p q)
      = v (ix1 p) :=
  (lanes40_apply _ p q).trans (column_apply v p)

/-- The zero word broadcast over the node array reads the zero word everywhere. -/
theorem zeros64_apply (i : S100000x64.Idx) :
    broadcastInDim S100000x64 ![] bcast_S_S100000x64 (constant (F := Ideal) S_ .f32 0x00000000#32) i = zeroWord :=
  (broadcastInDim_apply _ bcast_S_S100000x64 _ i ix0 (fun a => a.elim0)).trans rfl

/-- The word of −∞ broadcast over the nodes reads that word everywhere. -/
theorem negInf_apply (i : S100000.Idx) :
    broadcastInDim S100000 ![] bcast_S_S100000 (constant (F := Ideal) S_ .f32 0xFF800000#32) i = negInfWord :=
  (broadcastInDim_apply _ bcast_S_S100000 _ i ix0 (fun a => a.elim0)).trans rfl

/-- The reciprocal square root of the offset variances, as a row read at (0, k). -/
theorem rsqrtRow_apply (var : FVec Ideal S64 .f32) (k : Fin 64) :
    rowOf64 (Host.rsqrt (addf var (broadcastInDim S64 ![] bcast_S_S64 (constant (F := Ideal) S_ .f32 0x3727C5AC#32)))) (ix2 (0 : Fin 1) k)
      = Ideal.rsqrt (rowOf64 var (ix2 (0 : Fin 1) k) + epsWord) := by
  show Ideal.rsqrt (var (ix1 k) + broadcastInDim S64 ![] bcast_S_S64 (constant (F := Ideal) S_ .f32 0x3727C5AC#32) (ix1 k)) = _
  rw [broadcastInDim_apply _ bcast_S_S64 _ (ix1 k) ix0 (fun a => a.elim0)]
  rfl

/-! ## The part the two layers share -/

/-- The hidden units of node `p`, from the summed array `s` (the neighbour sums plus the node array). -/
theorem hidden_apply (s : FVec Ideal S100000x64 .f32) (w1 : FVec Ideal S64x64 .f32) (b1 mu var g bt : FVec Ideal S64 .f32)
    (p : Fin 100000) (k : Fin 64) (xr ar : Fin 64 → EReal) (hs : ∀ k' : Fin 64, s (ix2 p k') = ar k' + xr k') :
    maximumf (addf (mulf (mulf (subf (addf (Host.dotGeneral dot_S100000x64_S64x64_S100000x64_1_0_0_1_n_n none s w1)
        (broadcastInDim S100000x64 ![0, 1] bcast_S1x64_S100000x64_0_1 (broadcastInDim S1x64 ![1] bcast_S64_S1x64_1 b1)))
        (broadcastInDim S100000x64 ![0, 1] bcast_S1x64_S100000x64_0_1 (broadcastInDim S1x64 ![1] bcast_S64_S1x64_1 mu)))
        (broadcastInDim S100000x64 ![0, 1] bcast_S1x64_S100000x64_0_1 (broadcastInDim S1x64 ![1] bcast_S64_S1x64_1
          (Host.rsqrt (addf var (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 g)))
        (broadcastInDim S100000x64 ![0, 1] bcast_S1x64_S100000x64_0_1 (broadcastInDim S1x64 ![1] bcast_S64_S1x64_1 bt)))
      (broadcastInDim S100000x64 ![] bcast_S_S100000x64 (constant (F := Ideal) S_ .f32 0x00000000#32)) (ix2 p k)
      = hidden xr ar w1 (rowOf64 b1) (rowOf64 g) (rowOf64 bt) (rowOf64 mu) (rowOf64 var) k := by
  simp only [maximumf_apply, addf_apply, mulf_apply, subf_apply]
  rw [hostDot64_apply, rows64_apply, rows64_apply, rows64_apply, rows64_apply, rows64_apply, zeros64_apply, rsqrtRow_apply]
  simp only [hs]
  rfl

/-! ## The log-softmax -/

/-- The reference's log-softmax of the array `Z` of logits, at (p, q): the log-softmax of node p's row at q.  Its
    row maximum is folded from −∞ and then once more compared with −∞, which changes nothing; its row sum starts from
    zero. -/
theorem softmax_apply (Z : FVec Ideal S100000x40 .f32) (p : Fin 100000) (q : Fin 40) :
    subf (subf Z (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce (FloatOps.maximumf (F := Ideal) (φ := .f32)) Z (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
          (Host.reduceAdd (Host.exp (subf Z (broadcastInDim S100000x40 ![0, 1] bcast_S100000x1_S100000x40_0_1 (broadcastInDim S100000x1 ![0] bcast_S100000_S100000x1_0
              (maximumf (broadcastInDim S100000 ![] bcast_S_S100000 (constant (F := Ideal) S_ .f32 0xFF800000#32))
                (Host.reduce (FloatOps.maximumf (F := Ideal) (φ := .f32)) Z (constant (F := Ideal) S_ .f32 0xFF800000#32) reducesTo_S100000x40_S100000_d1 h_S_))))))
            (constant (F := Ideal) S_ .f32 0x00000000#32) reducesTo_S100000x40_S100000_d1 h_S_)))) (ix2 p q)
      = logSoftmaxRow (fun j => Z (ix2 p j)) q := by
  have hM : ∀ r : Fin 100000,
      maximumf (broadcastInDim S100000 ![] bcast_S_S100000 (constant (F := Ideal) S_ .f32 0xFF800000#32))
          (Host.reduce (FloatOps.maximumf (F := Ideal) (φ := .f32)) Z (constant (F := Ideal) S_ .f32 0xFF800000#32) reducesTo_S100000x40_S100000_d1 h_S_) (ix1 r)
        = rowMax (fun j => Z (ix2 r j)) := fun r =>
    (maximumf_apply _ _ (ix1 r)).trans
      ((congrArg₂ max (negInf_apply (ix1 r))
          (hostReduceMax2_last Z _ reducesTo_S100000x40_S100000_d1 (by decide) h_S_ r)).trans
        (max_fold_max_self Finset.univ negInfWord fun k => Z (ix2 r k)))
  generalize maximumf (broadcastInDim S100000 ![] bcast_S_S100000 (constant (F := Ideal) S_ .f32 0xFF800000#32))
      (Host.reduce (FloatOps.maximumf (F := Ideal) (φ := .f32)) Z (constant (F := Ideal) S_ .f32 0xFF800000#32) reducesTo_S100000x40_S100000_d1 h_S_) = M at hM ⊢
  have hD : ∀ (r : Fin 100000) (j : Fin 40),
      subf Z (broadcastInDim S100000x40 ![0, 1] bcast_S100000x1_S100000x40_0_1 (broadcastInDim S100000x1 ![0] bcast_S100000_S100000x1_0 M)) (ix2 r j)
        = Z (ix2 r j) - rowMax (fun j => Z (ix2 r j)) := fun r j => by
    simp only [subf_apply]
    rw [cols40_apply, hM]
  generalize subf Z (broadcastInDim S100000x40 ![0, 1] bcast_S100000x1_S100000x40_0_1 (broadcastInDim S100000x1 ![0] bcast_S100000_S100000x1_0 M)) = D at hD ⊢
  have hS : ∀ r : Fin 100000,
      Host.reduceAdd (Host.exp D) (constant (F := Ideal) S_ .f32 0x00000000#32) reducesTo_S100000x40_S100000_d1 h_S_ (ix1 r)
        = ∑ j : Fin 40, Ideal.exp (Z (ix2 r j) - rowMax (fun j => Z (ix2 r j))) := fun r => by
    simp only [Host.reduceAdd, Ideal.hostReduceAdd_def]
    rw [Ideal.hostReduceAdd_single reducesTo_S100000x40_S100000_d1 (by decide)]
    refine (congrArg (· + _) (Ideal.ofBits_zero_f32)).trans ((zero_add _).trans (Finset.sum_congr rfl fun j _ => ?_))
    refine (congrArg (Host.exp D) (lift2_last (A := 100000) (B := 40) (by decide) r j)).trans ?_
    exact congrArg Ideal.exp (hD r j)
  generalize Host.reduceAdd (Host.exp D) (constant (F := Ideal) S_ .f32 0x00000000#32) reducesTo_S100000x40_S100000_d1 h_S_ = S at hS ⊢
  simp only [subf_apply]
  have hL : broadcastInDim S100000x40 ![0, 1] bcast_S100000x1_S100000x40_0_1 (Host.log (broadcastInDim S100000x1 ![0] bcast_S100000_S100000x1_0 S)) (ix2 p q)
      = Ideal.log (S (ix1 p)) :=
    (lanes40_apply _ p q).trans (congrArg Ideal.log (column_apply S p))
  rw [hL, hS, hD]
  rfl

end Cert.ReferenceIdeal.RefValue

end
-- ==== Proof.RefNetwork.lean ====
/-
  The reference's stages as whole-array terms, and their composition as the network.

  Each stage is the reference's own operations applied to whole arrays: the hidden units of a layer, the first
  layer, the logits of the second layer, the log-softmax, the neighbour sums.  Read at an entry each is the layer's
  formula (the lemmas of the previous module); the neighbour sums are the same gather and scatter-add the kernel's
  host side applies, and a vector broadcast to a row is the vector reshaped to a row.  So the stages composed are the
  network's function of the eighteen arguments.
-/
import proofs.«162577_j87101936763026_1_alg».proof.Proof.RefValue
import proofs.«162577_j87101936763026_1_alg».proof.Proof.Network

noncomputable section

namespace Cert.ReferenceIdeal.RefValue

open Idealize.ShloMosaic Idealize.ShloMosaic.ValueIdx
open Cert.ReferenceIdeal Cert.ReferenceIdeal.Gen Cert.Gin

/-! ## The stages -/

/-- The hidden units of every node, from the summed array `s`. -/
def hiddenRef (s : FVec Ideal S100000x64 .f32) (w1 : FVec Ideal S64x64 .f32) (b1 mu var g bt : FVec Ideal S64 .f32) :
    FVec Ideal S100000x64 .f32 :=
  maximumf (addf (mulf (mulf (subf (addf (Host.dotGeneral dot_S100000x64_S64x64_S100000x64_1_0_0_1_n_n none s w1)
        (broadcastInDim S100000x64 ![0, 1] bcast_S1x64_S100000x64_0_1 (broadcastInDim S1x64 ![1] bcast_S64_S1x64_1 b1)))
        (broadcastInDim S100000x64 ![0, 1] bcast_S1x64_S100000x64_0_1 (broadcastInDim S1x64 ![1] bcast_S64_S1x64_1 mu)))
        (broadcastInDim S100000x64 ![0, 1] bcast_S1x64_S100000x64_0_1 (broadcastInDim S1x64 ![1] bcast_S64_S1x64_1
          (Host.rsqrt (addf var (broadcastInDim S64 ![] bcast_S_S64 (constant (F := Ideal) S_ .f32 0x3727C5AC#32)))))))
        (broadcastInDim S100000x64 ![0, 1] bcast_S1x64_S100000x64_0_1 (broadcastInDim S1x64 ![1] bcast_S64_S1x64_1 g)))
        (broadcastInDim S100000x64 ![0, 1] bcast_S1x64_S100000x64_0_1 (broadcastInDim S1x64 ![1] bcast_S64_S1x64_1 bt)))
      (broadcastInDim S100000x64 ![] bcast_S_S100000x64 (constant (F := Ideal) S_ .f32 0x00000000#32))

/-- The first layer. -/
def layer0Ref (x agg : FVec Ideal S100000x64 .f32) (w1 : FVec Ideal S64x64 .f32) (b1 g bt mu var : FVec Ideal S64 .f32)
    (w2 : FVec Ideal S64x64 .f32) (b2 : FVec Ideal S64 .f32) : FVec Ideal S100000x64 .f32 :=
  maximumf (addf (Host.dotGeneral dot_S100000x64_S64x64_S100000x64_1_0_0_1_n_n none (hiddenRef (addf agg x) w1 b1 mu var g bt) w2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))

/-- The logits of the second layer. -/
def logitsRef (x agg : FVec Ideal S100000x64 .f32) (w1 : FVec Ideal S64x64 .f32) (b1 g bt mu var : FVec Ideal S64 .f32)
    (w2 : FVec Ideal S64x40 .f32) (b2 : FVec Ideal S40 .f32) : FVec Ideal S100000x40 .f32 :=
  addf (Host.dotGeneral dot_S100000x64_S64x40_S100000x40_1_0_0_1_n_n none (hiddenRef (addf agg x) w1 b1 mu var g bt) w2) (broadcastInDim S100000x40 ![0, 1] bcast_S1x40_S100000x40_0_1 (broadcastInDim S1x40 ![1] bcast_S40_S1x40_1 b2))

/-- The log-softmax of every node's logits. -/
def logSoftmaxRef (Z : FVec Ideal S100000x40 .f32) : FVec Ideal S100000x40 .f32 :=
  subf (subf Z (broadcastInDim S100000x40 ![0, 1] bcast_S100000x1_S100000x40_0_1 (broadcastInDim S100000x1 ![0] bcast_S100000_S100000x1_0
          (maximumf (broadcastInDim S100000 ![] bcast_S_S100000 (constant (F := Ideal) S_ .f32 0xFF800000#32))
            (Host.reduce (FloatOps.maximumf (F := Ideal) (φ := .f32)) Z (constant (F := Ideal) S_ .f32 0xFF800000#32) reducesTo_S100000x40_S100000_d1 h_S_)))))
      (broadcastInDim S100000x40 ![0, 1] bcast_S100000x1_S100000x40_0_1 (Host.log (broadcastInDim S100000x1 ![0] bcast_S100000_S100000x1_0
          (Host.reduceAdd (Host.exp (subf Z (broadcastInDim S100000x40 ![0, 1] bcast_S100000x1_S100000x40_0_1 (broadcastInDim S100000x1 ![0] bcast_S100000_S100000x1_0
              (maximumf (broadcastInDim S100000 ![] bcast_S_S100000 (constant (F := Ideal) S_ .f32 0xFF800000#32))
                (Host.reduce (FloatOps.maximumf (F := Ideal) (φ := .f32)) Z (constant (F := Ideal) S_ .f32 0xFF800000#32) reducesTo_S100000x40_S100000_d1 h_S_))))))
            (constant (F := Ideal) S_ .f32 0x00000000#32) reducesTo_S100000x40_S100000_d1 h_S_))))

/-- The edges' source nodes. -/
def srcRef (ei : (⟨S2x1600000, .i32⟩ : BufTy).Contents (Elt Ideal)) : IVec S1600000 32 :=
  shapeCast S1600000 (extractStridedSlice S1x1600000 ![0, 0] ei slices_S2x1600000_S1x1600000_0_0) shapeCasts_S1x1600000_S1600000
/-- The edges' destination nodes. -/
def dstRef (ei : (⟨S2x1600000, .i32⟩ : BufTy).Contents (Elt Ideal)) : IVec S1600000 32 :=
  shapeCast S1600000 (extractStridedSlice S1x1600000 ![1, 0] ei slices_S2x1600000_S1x1600000_1_0) shapeCasts_S1x1600000_S1600000

/-- The neighbour sums of a node array. -/
def aggregateRef (h : FVec Ideal S100000x64 .f32) (src dst : IVec S1600000 32) : FVec Ideal S100000x64 .f32 :=
  Host.scatterAdd scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## Each stage is the layer's function -/

theorem hiddenRef_apply (s : FVec Ideal S100000x64 .f32) (w1 : FVec Ideal S64x64 .f32) (b1 mu var g bt : FVec Ideal S64 .f32)
    (p : Fin 100000) (k : Fin 64) (xr ar : Fin 64 → EReal) (hs : ∀ k' : Fin 64, s (ix2 p k') = ar k' + xr k') :
    hiddenRef s w1 b1 mu var g bt (ix2 p k) = hidden xr ar w1 (rowOf64 b1) (rowOf64 g) (rowOf64 bt) (rowOf64 mu) (rowOf64 var) k :=
  hidden_apply s w1 b1 mu var g bt p k xr ar hs

/-- The first layer of the reference is the first layer. -/
theorem layer0Ref_eq (x agg : FVec Ideal S100000x64 .f32) (w1 : FVec Ideal S64x64 .f32) (b1 g bt mu var : FVec Ideal S64 .f32)
    (w2 : FVec Ideal S64x64 .f32) (b2 : FVec Ideal S64 .f32) :
    layer0Ref x agg w1 b1 g bt mu var w2 b2
      = layer0 x agg w1 (rowOf64 b1) (rowOf64 g) (rowOf64 bt) (rowOf64 mu) (rowOf64 var) w2 (rowOf64 b2) := by
  funext i
  obtain ⟨p, q, rfl⟩ : ∃ (p : Fin 100000) (q : Fin 64), i = ix2 p q := ⟨i 0, i 1, eq_ix2 i⟩
  unfold layer0Ref
  simp only [maximumf_apply, addf_apply]
  rw [hostDot64_apply, rows64_apply, zeros64_apply]
  refine congrArg (fun t : EReal => max (t + rowOf64 b2 (ix2 0 q)) zeroWord) (Finset.sum_congr rfl fun k _ => ?_)
  refine congrArg (fun t : EReal => t * w2 (ix2 k q)) ?_
  exact hiddenRef_apply _ w1 b1 mu var g bt p k (row x p) (row agg p) fun k' => rfl

/-- The logits of the reference's second layer are the layer's logits. -/
theorem logitsRef_apply (x agg : FVec Ideal S100000x64 .f32) (w1 : FVec Ideal S64x64 .f32) (b1 g bt mu var : FVec Ideal S64 .f32)
    (w2 : FVec Ideal S64x40 .f32) (b2 : FVec Ideal S40 .f32) (p : Fin 100000) (j : Fin 40) :
    logitsRef x agg w1 b1 g bt mu var w2 b2 (ix2 p j)
      = logit (row x p) (row agg p) w1 (rowOf64 b1) (rowOf64 g) (rowOf64 bt) (rowOf64 mu) (rowOf64 var) w2 (rowOf40 b2) j := by
  unfold logitsRef
  simp only [addf_apply]
  rw [hostDot40_apply, rows40_apply]
  refine congrArg (fun t : EReal => t + rowOf40 b2 (ix2 0 j)) (Finset.sum_congr rfl fun k _ => ?_)
  refine congrArg (fun t : EReal => t * w2 (ix2 k j)) ?_
  exact hiddenRef_apply _ w1 b1 mu var g bt p k (row x p) (row agg p) fun k' => rfl

/-- The reference's log-softmax at an entry is the log-softmax of the node's row. -/
theorem logSoftmaxRef_apply (Z : FVec Ideal S100000x40 .f32) (p : Fin 100000) (q : Fin 40) :
    logSoftmaxRef Z (ix2 p q) = logSoftmaxRow (fun j => Z (ix2 p j)) q :=
  softmax_apply Z p q

/-- The reference's second layer is the second layer. -/
theorem layer1Ref_eq (x agg : FVec Ideal S100000x64 .f32) (w1 : FVec Ideal S64x64 .f32) (b1 g bt mu var : FVec Ideal S64 .f32)
    (w2 : FVec Ideal S64x40 .f32) (b2 : FVec Ideal S40 .f32) :
    logSoftmaxRef (logitsRef x agg w1 b1 g bt mu var w2 b2)
      = layer1 x agg w1 (rowOf64 b1) (rowOf64 g) (rowOf64 bt) (rowOf64 mu) (rowOf64 var) w2 (rowOf40 b2) := by
  funext i
  obtain ⟨p, q, rfl⟩ : ∃ (p : Fin 100000) (q : Fin 40), i = ix2 p q := ⟨i 0, i 1, eq_ix2 i⟩
  exact (logSoftmaxRef_apply _ p q).trans (congrArg (fun z : Fin 40 → EReal => logSoftmaxRow z q)
    (funext fun j => logitsRef_apply x agg w1 b1 g bt mu var w2 b2 p j))

/-! ## The two spellings of the same things -/

/-- A vector broadcast to a row is the vector reshaped to a row. -/
theorem asRow64_eq (v : FVec Ideal S64 .f32) : asRow64 v = rowOf64 v := by
  funext i
  obtain ⟨u, k, rfl⟩ : ∃ (u : Fin 1) (k : Fin 64), i = ix2 u k := ⟨i 0, i 1, eq_ix2 i⟩
  exact shapeCast_a_1a_apply v _ u k
theorem asRow40_eq (v : FVec Ideal S40 .f32) : asRow40 v = rowOf40 v := by
  funext i
  obtain ⟨u, k, rfl⟩ : ∃ (u : Fin 1) (k : Fin 40), i = ix2 u k := ⟨i 0, i 1, eq_ix2 i⟩
  exact shapeCast_a_1a_apply v _ u k

/-- The reference's neighbour sums are the kernel's host side's: the same gather and scatter-add. -/
theorem aggregateRef_eq (h : FVec Ideal S100000x64 .f32) (src dst : IVec S1600000 32) :
    aggregateRef h src dst = aggregate h src dst := rfl
theorem srcRef_eq (ei : (⟨S2x1600000, .i32⟩ : BufTy).Contents (Elt Ideal)) : srcRef ei = srcOf ei := rfl
theorem dstRef_eq (ei : (⟨S2x1600000, .i32⟩ : BufTy).Contents (Elt Ideal)) : dstRef ei = dstOf ei := rfl

/-! ## The composition -/

/-- The reference's stages composed, as a function of the eighteen arguments. -/
def networkRef (x : FVec Ideal S100000x64 .f32) (ei : (⟨S2x1600000, .i32⟩ : BufTy).Contents (Elt Ideal))
    (w1 : FVec Ideal S64x64 .f32) (b1 g bt mu var : FVec Ideal S64 .f32) (w2 : FVec Ideal S64x64 .f32) (b2 : FVec Ideal S64 .f32)
    (w1' : FVec Ideal S64x64 .f32) (b1' g' bt' mu' var' : FVec Ideal S64 .f32) (w2' : FVec Ideal S64x40 .f32) (b2' : FVec Ideal S40 .f32) :
    FVec Ideal S100000x40 .f32 :=
  logSoftmaxRef (logitsRef (layer0Ref x (aggregateRef x (srcRef ei) (dstRef ei)) w1 b1 g bt mu var w2 b2)
    (aggregateRef (layer0Ref x (aggregateRef x (srcRef ei) (dstRef ei)) w1 b1 g bt mu var w2 b2) (srcRef ei) (dstRef ei))
    w1' b1' g' bt' mu' var' w2' b2')

/-- The reference's stages composed are the network. -/
theorem networkRef_eq (x : FVec Ideal S100000x64 .f32) (ei : (⟨S2x1600000, .i32⟩ : BufTy).Contents (Elt Ideal))
    (w1 : FVec Ideal S64x64 .f32) (b1 g bt mu var : FVec Ideal S64 .f32) (w2 : FVec Ideal S64x64 .f32) (b2 : FVec Ideal S64 .f32)
    (w1' : FVec Ideal S64x64 .f32) (b1' g' bt' mu' var' : FVec Ideal S64 .f32) (w2' : FVec Ideal S64x40 .f32) (b2' : FVec Ideal S40 .f32) :
    networkRef x ei w1 b1 g bt mu var w2 b2 w1' b1' g' bt' mu' var' w2' b2'
      = network x ei w1 b1 g bt mu var w2 b2 w1' b1' g' bt' mu' var' w2' b2' := by
  unfold networkRef network firstLayer
  rw [layer1Ref_eq, layer0Ref_eq, aggregateRef_eq, aggregateRef_eq, srcRef_eq, dstRef_eq]
  simp only [asRow64_eq, asRow40_eq]

end Cert.ReferenceIdeal.RefValue

end
-- ==== Proof.RefResult.lean ====
/-
  The reference's result buffer, evaluated.

  The reference's run ends with every buffer at the fold of its 104 operations over the launch memory.  The fold is
  taken in ten short stretches — the neighbour sums of the features, the first layer's hidden units, its output, the
  neighbour sums of that output, the second layer's hidden units, its logits, and the log-softmax in four steps (the
  row maximum, the shift, the sum of exponentials, the final subtraction) — and after each stretch only what a later
  stretch reads is kept: the stretch's own result, and the buffers written earlier that no operation of the stretch
  writes again.  Composed, the result buffer holds the reference's stages applied to the eighteen arguments.
-/
import proofs.«162577_j87101936763026_1_alg».proof.Proof.RefRun
import proofs.«162577_j87101936763026_1_alg».proof.Proof.RefNetwork

noncomputable section

namespace Cert.ReferenceIdeal.RefResult

open Cert.ReferenceIdeal Cert.ReferenceIdeal.Gen Idealize.ShloMosaic Idealize.ShloMosaic.TcCoe Idealize.SL.Sem Idealize.ShloMosaic.StableHlo
open Cert.ReferenceIdeal.RefValue Cert.ReferenceIdeal.Value

variable {F : FTy → Type} [FloatOps F]

/-! ## The stretches -/

/-- Operations 0 … 16 of the reference's @main. -/
abbrev segA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
        reshape main_v0 main_v1 rfl shapeCasts_S1x1600000_S1600000,
        unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
        reshape main_v2 main_v3 rfl shapeCasts_S1x1600000_S1600000,
        nullary main_c (constantI S_ 32 0#32),
        unary main_c main_v4 (broadcastInDim S1600000 ![] bcast_S_S1600000 : (⟨S_, .i32⟩ : BufTy).Contents (Elt F) → (⟨S1600000, .i32⟩ : BufTy).Contents (Elt F)),
        binary main_v1 main_v4 main_v5 (cmpi .slt : (⟨S1600000, .i32⟩ : BufTy).Contents (Elt F) → (⟨S1600000, .i32⟩ : BufTy).Contents (Elt F) → (⟨S1600000, .i1⟩ : BufTy).Contents (Elt F)),
        nullary main_c_0 (constantI S_ 32 100000#32),
        unary main_c_0 main_v6 (broadcastInDim S1600000 ![] bcast_S_S1600000 : (⟨S_, .i32⟩ : BufTy).Contents (Elt F) → (⟨S1600000, .i32⟩ : BufTy).Contents (Elt F)),
        binary main_v1 main_v6 main_v7 (addi : (⟨S1600000, .i32⟩ : BufTy).Contents (Elt F) → (⟨S1600000, .i32⟩ : BufTy).Contents (Elt F) → (⟨S1600000, .i32⟩ : BufTy).Contents (Elt F)),
        ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
        unary main_v8 main_v9 (broadcastInDim S1600000x1 ![0] bcast_S1600000_S1600000x1_0 : (⟨S1600000, .i32⟩ : BufTy).Contents (Elt F) → (⟨S1600000x1, .i32⟩ : BufTy).Contents (Elt F)),
        binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
        nullary main_cst (constant S_ .f32 0x00000000#32),
        unary main_cst main_v11 (broadcastInDim S100000x64 ![] bcast_S_S100000x64 : (⟨S_, .f32⟩ : BufTy).Contents (Elt F) → (⟨S100000x64, .f32⟩ : BufTy).Contents (Elt F)),
        unary main_v3 main_v12 (broadcastInDim S1600000x1 ![0] bcast_S1600000_S1600000x1_0 : (⟨S1600000, .i32⟩ : BufTy).Contents (Elt F) → (⟨S1600000x1, .i32⟩ : BufTy).Contents (Elt F)),
        ternary main_v11 main_v12 main_v10 main_v13 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Operations 17 … 40 of the reference's @main. -/
abbrev segB : List (HloOp τ sig (Elt F)) :=
  [     binary main_v13 main_arg0 main_v14 (addf : (⟨S100000x64, .f32⟩ : BufTy).Contents (Elt F) → (⟨S100000x64, .f32⟩ : BufTy).Contents (Elt F) → (⟨S100000x64, .f32⟩ : BufTy).Contents (Elt F)),
        binary main_v14 main_arg2 main_v15 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
        unary main_arg3 main_v16 (broadcastInDim S1x64 ![1] bcast_S64_S1x64_1 : (⟨S64, .f32⟩ : BufTy).Contents (Elt F) → (⟨S1x64, .f32⟩ : BufTy).Contents (Elt F)),
        unary main_v16 main_v17 (broadcastInDim S100000x64 ![0, 1] bcast_S1x64_S100000x64_0_1 : (⟨S1x64, .f32⟩ : BufTy).Contents (Elt F) → (⟨S100000x64, .f32⟩ : BufTy).Contents (Elt F)),
        binary main_v15 main_v17 main_v18 (addf : (⟨S100000x64, .f32⟩ : BufTy).Contents (Elt F) → (⟨S100000x64, .f32⟩ : BufTy).Contents (Elt F) → (⟨S100000x64, .f32⟩ : BufTy).Contents (Elt F)),
        unary main_arg6 main_v19 (broadcastInDim S1x64 ![1] bcast_S64_S1x64_1 : (⟨S64, .f32⟩ : BufTy).Contents (Elt F) → (⟨S1x64, .f32⟩ : BufTy).Contents (Elt F)),
        unary main_v19 main_v20 (broadcastInDim S100000x64 ![0, 1] bcast_S1x64_S100000x64_0_1 : (⟨S1x64, .f32⟩ : BufTy).Contents (Elt F) → (⟨S100000x64, .f32⟩ : BufTy).Contents (Elt F)),
        binary main_v18 main_v20 main_v21 (subf : (⟨S100000x64, .f32⟩ : BufTy).Contents (Elt F) → (⟨S100000x64, .f32⟩ : BufTy).Contents (Elt F) → (⟨S100000x64, .f32⟩ : BufTy).Contents (Elt F)),
        nullary main_cst_1 (constant S_ .f32 0x3727C5AC#32),
        unary main_cst_1 main_v22 (broadcastInDim S64 ![] bcast_S_S64 : (⟨S_, .f32⟩ : BufTy).Contents (Elt F) → (⟨S64, .f32⟩ : BufTy).Contents (Elt F)),
        binary main_arg7 main_v22 main_v23 (addf : (⟨S64, .f32⟩ : BufTy).Contents (Elt F) → (⟨S64, .f32⟩ : BufTy).Contents (Elt F) → (⟨S64, .f32⟩ : BufTy).Contents (Elt F)),
        unary main_v23 main_v24 (Host.rsqrt : (⟨S64, .f32⟩ : BufTy).Contents (Elt F) → (⟨S64, .f32⟩ : BufTy).Contents (Elt F)),
        unary main_v24 main_v25 (broadcastInDim S1x64 ![1] bcast_S64_S1x64_1 : (⟨S64, .f32⟩ : BufTy).Contents (Elt F) → (⟨S1x64, .f32⟩ : BufTy).Contents (Elt F)),
        unary main_v25 main_v26 (broadcastInDim S100000x64 ![0, 1] bcast_S1x64_S100000x64_0_1 : (⟨S1x64, .f32⟩ : BufTy).Contents (Elt F) → (⟨S100000x64, .f32⟩ : BufTy).Contents (Elt F)),
        binary main_v21 main_v26 main_v27 (mulf : (⟨S100000x64, .f32⟩ : BufTy).Contents (Elt F) → (⟨S100000x64, .f32⟩ : BufTy).Contents (Elt F) → (⟨S100000x64, .f32⟩ : BufTy).Contents (Elt F)),
        unary main_arg4 main_v28 (broadcastInDim S1x64 ![1] bcast_S64_S1x64_1 : (⟨S64, .f32⟩ : BufTy).Contents (Elt F) → (⟨S1x64, .f32⟩ : BufTy).Contents (Elt F)),
        unary main_v28 main_v29 (broadcastInDim S100000x64 ![0, 1] bcast_S1x64_S100000x64_0_1 : (⟨S1x64, .f32⟩ : BufTy).Contents (Elt F) → (⟨S100000x64, .f32⟩ : BufTy).Contents (Elt F)),
        binary main_v27 main_v29 main_v30 (mulf : (⟨S100000x64, .f32⟩ : BufTy).Contents (Elt F) → (⟨S100000x64, .f32⟩ : BufTy).Contents (Elt F) → (⟨S100000x64, .f32⟩ : BufTy).Contents (Elt F)),
        unary main_arg5 main_v31 (broadcastInDim S1x64 ![1] bcast_S64_S1x64_1 : (⟨S64, .f32⟩ : BufTy).Contents (Elt F) → (⟨S1x64, .f32⟩ : BufTy).Contents (Elt F)),
        unary main_v31 main_v32 (broadcastInDim S100000x64 ![0, 1] bcast_S1x64_S100000x64_0_1 : (⟨S1x64, .f32⟩ : BufTy).Contents (Elt F) → (⟨S100000x64, .f32⟩ : BufTy).Contents (Elt F)),
        binary main_v30 main_v32 main_v33 (addf : (⟨S100000x64, .f32⟩ : BufTy).Contents (Elt F) → (⟨S100000x64, .f32⟩ : BufTy).Contents (Elt F) → (⟨S100000x64, .f32⟩ : BufTy).Contents (Elt F)),
        TRef.nullary (TRef.of (T := ⟨S_, .f32⟩) main_call0_cst) (constant S_ .f32 0x00000000#32),
        TRef.unary (TRef.of (T := ⟨S_, .f32⟩) main_call0_cst) (TRef.of (T := ⟨S100000x64, .f32⟩) main_call0_v0) (broadcastInDim S100000x64 ![] bcast_S_S100000x64),
        TRef.binary (TRef.of (T := ⟨S100000x64, .f32⟩) main_v33) (TRef.of (T := ⟨S100000x64, .f32⟩) main_call0_v0) (TRef.of (T := ⟨S100000x64, .f32⟩) main_v34) maximumf ]

/-- Operations 41 … 47 of the reference's @main. -/
abbrev segC : List (HloOp τ sig (Elt F)) :=
  [     binary main_v34 main_arg8 main_v35 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
        unary main_arg9 main_v36 (broadcastInDim S1x64 ![1] bcast_S64_S1x64_1 : (⟨S64, .f32⟩ : BufTy).Contents (Elt F) → (⟨S1x64, .f32⟩ : BufTy).Contents (Elt F)),
        unary main_v36 main_v37 (broadcastInDim S100000x64 ![0, 1] bcast_S1x64_S100000x64_0_1 : (⟨S1x64, .f32⟩ : BufTy).Contents (Elt F) → (⟨S100000x64, .f32⟩ : BufTy).Contents (Elt F)),
        binary main_v35 main_v37 main_v38 (addf : (⟨S100000x64, .f32⟩ : BufTy).Contents (Elt F) → (⟨S100000x64, .f32⟩ : BufTy).Contents (Elt F) → (⟨S100000x64, .f32⟩ : BufTy).Contents (Elt F)),
        TRef.nullary (TRef.of (T := ⟨S_, .f32⟩) main_call1_cst) (constant S_ .f32 0x00000000#32),
        TRef.unary (TRef.of (T := ⟨S_, .f32⟩) main_call1_cst) (TRef.of (T := ⟨S100000x64, .f32⟩) main_call1_v0) (broadcastInDim S100000x64 ![] bcast_S_S100000x64),
        TRef.binary (TRef.of (T := ⟨S100000x64, .f32⟩) main_v38) (TRef.of (T := ⟨S100000x64, .f32⟩) main_call1_v0) (TRef.of (T := ⟨S100000x64, .f32⟩) main_v39) maximumf ]

/-- Operations 48 … 60 of the reference's @main. -/
abbrev segD : List (HloOp τ sig (Elt F)) :=
  [     nullary main_c_2 (constantI S_ 32 0#32),
        unary main_c_2 main_v40 (broadcastInDim S1600000 ![] bcast_S_S1600000 : (⟨S_, .i32⟩ : BufTy).Contents (Elt F) → (⟨S1600000, .i32⟩ : BufTy).Contents (Elt F)),
        binary main_v1 main_v40 main_v41 (cmpi .slt : (⟨S1600000, .i32⟩ : BufTy).Contents (Elt F) → (⟨S1600000, .i32⟩ : BufTy).Contents (Elt F) → (⟨S1600000, .i1⟩ : BufTy).Contents (Elt F)),
        nullary main_c_3 (constantI S_ 32 100000#32),
        unary main_c_3 main_v42 (broadcastInDim S1600000 ![] bcast_S_S1600000 : (⟨S_, .i32⟩ : BufTy).Contents (Elt F) → (⟨S1600000, .i32⟩ : BufTy).Contents (Elt F)),
        binary main_v1 main_v42 main_v43 (addi : (⟨S1600000, .i32⟩ : BufTy).Contents (Elt F) → (⟨S1600000, .i32⟩ : BufTy).Contents (Elt F) → (⟨S1600000, .i32⟩ : BufTy).Contents (Elt F)),
        ternary main_v41 main_v43 main_v1 main_v44 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
        unary main_v44 main_v45 (broadcastInDim S1600000x1 ![0] bcast_S1600000_S1600000x1_0 : (⟨S1600000, .i32⟩ : BufTy).Contents (Elt F) → (⟨S1600000x1, .i32⟩ : BufTy).Contents (Elt F)),
        binary main_v39 main_v45 main_v46 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
        nullary main_cst_4 (constant S_ .f32 0x00000000#32),
        unary main_cst_4 main_v47 (broadcastInDim S100000x64 ![] bcast_S_S100000x64 : (⟨S_, .f32⟩ : BufTy).Contents (Elt F) → (⟨S100000x64, .f32⟩ : BufTy).Contents (Elt F)),
        unary main_v3 main_v48 (broadcastInDim S1600000x1 ![0] bcast_S1600000_S1600000x1_0 : (⟨S1600000, .i32⟩ : BufTy).Contents (Elt F) → (⟨S1600000x1, .i32⟩ : BufTy).Contents (Elt F)),
        ternary main_v47 main_v48 main_v46 main_v49 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Operations 61 … 84 of the reference's @main. -/
abbrev segE : List (HloOp τ sig (Elt F)) :=
  [     binary main_v49 main_v39 main_v50 (addf : (⟨S100000x64, .f32⟩ : BufTy).Contents (Elt F) → (⟨S100000x64, .f32⟩ : BufTy).Contents (Elt F) → (⟨S100000x64, .f32⟩ : BufTy).Contents (Elt F)),
        binary main_v50 main_arg10 main_v51 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
        unary main_arg11 main_v52 (broadcastInDim S1x64 ![1] bcast_S64_S1x64_1 : (⟨S64, .f32⟩ : BufTy).Contents (Elt F) → (⟨S1x64, .f32⟩ : BufTy).Contents (Elt F)),
        unary main_v52 main_v53 (broadcastInDim S100000x64 ![0, 1] bcast_S1x64_S100000x64_0_1 : (⟨S1x64, .f32⟩ : BufTy).Contents (Elt F) → (⟨S100000x64, .f32⟩ : BufTy).Contents (Elt F)),
        binary main_v51 main_v53 main_v54 (addf : (⟨S100000x64, .f32⟩ : BufTy).Contents (Elt F) → (⟨S100000x64, .f32⟩ : BufTy).Contents (Elt F) → (⟨S100000x64, .f32⟩ : BufTy).Contents (Elt F)),
        unary main_arg14 main_v55 (broadcastInDim S1x64 ![1] bcast_S64_S1x64_1 : (⟨S64, .f32⟩ : BufTy).Contents (Elt F) → (⟨S1x64, .f32⟩ : BufTy).Contents (Elt F)),
        unary main_v55 main_v56 (broadcastInDim S100000x64 ![0, 1] bcast_S1x64_S100000x64_0_1 : (⟨S1x64, .f32⟩ : BufTy).Contents (Elt F) → (⟨S100000x64, .f32⟩ : BufTy).Contents (Elt F)),
        binary main_v54 main_v56 main_v57 (subf : (⟨S100000x64, .f32⟩ : BufTy).Contents (Elt F) → (⟨S100000x64, .f32⟩ : BufTy).Contents (Elt F) → (⟨S100000x64, .f32⟩ : BufTy).Contents (Elt F)),
        nullary main_cst_5 (constant S_ .f32 0x3727C5AC#32),
        unary main_cst_5 main_v58 (broadcastInDim S64 ![] bcast_S_S64 : (⟨S_, .f32⟩ : BufTy).Contents (Elt F) → (⟨S64, .f32⟩ : BufTy).Contents (Elt F)),
        binary main_arg15 main_v58 main_v59 (addf : (⟨S64, .f32⟩ : BufTy).Contents (Elt F) → (⟨S64, .f32⟩ : BufTy).Contents (Elt F) → (⟨S64, .f32⟩ : BufTy).Contents (Elt F)),
        unary main_v59 main_v60 (Host.rsqrt : (⟨S64, .f32⟩ : BufTy).Contents (Elt F) → (⟨S64, .f32⟩ : BufTy).Contents (Elt F)),
        unary main_v60 main_v61 (broadcastInDim S1x64 ![1] bcast_S64_S1x64_1 : (⟨S64, .f32⟩ : BufTy).Contents (Elt F) → (⟨S1x64, .f32⟩ : BufTy).Contents (Elt F)),
        unary main_v61 main_v62 (broadcastInDim S100000x64 ![0, 1] bcast_S1x64_S100000x64_0_1 : (⟨S1x64, .f32⟩ : BufTy).Contents (Elt F) → (⟨S100000x64, .f32⟩ : BufTy).Contents (Elt F)),
        binary main_v57 main_v62 main_v63 (mulf : (⟨S100000x64, .f32⟩ : BufTy).Contents (Elt F) → (⟨S100000x64, .f32⟩ : BufTy).Contents (Elt F) → (⟨S100000x64, .f32⟩ : BufTy).Contents (Elt F)),
        unary main_arg12 main_v64 (broadcastInDim S1x64 ![1] bcast_S64_S1x64_1 : (⟨S64, .f32⟩ : BufTy).Contents (Elt F) → (⟨S1x64, .f32⟩ : BufTy).Contents (Elt F)),
        unary main_v64 main_v65 (broadcastInDim S100000x64 ![0, 1] bcast_S1x64_S100000x64_0_1 : (⟨S1x64, .f32⟩ : BufTy).Contents (Elt F) → (⟨S100000x64, .f32⟩ : BufTy).Contents (Elt F)),
        binary main_v63 main_v65 main_v66 (mulf : (⟨S100000x64, .f32⟩ : BufTy).Contents (Elt F) → (⟨S100000x64, .f32⟩ : BufTy).Contents (Elt F) → (⟨S100000x64, .f32⟩ : BufTy).Contents (Elt F)),
        unary main_arg13 main_v67 (broadcastInDim S1x64 ![1] bcast_S64_S1x64_1 : (⟨S64, .f32⟩ : BufTy).Contents (Elt F) → (⟨S1x64, .f32⟩ : BufTy).Contents (Elt F)),
        unary main_v67 main_v68 (broadcastInDim S100000x64 ![0, 1] bcast_S1x64_S100000x64_0_1 : (⟨S1x64, .f32⟩ : BufTy).Contents (Elt F) → (⟨S100000x64, .f32⟩ : BufTy).Contents (Elt F)),
        binary main_v66 main_v68 main_v69 (addf : (⟨S100000x64, .f32⟩ : BufTy).Contents (Elt F) → (⟨S100000x64, .f32⟩ : BufTy).Contents (Elt F) → (⟨S100000x64, .f32⟩ : BufTy).Contents (Elt F)),
        TRef.nullary (TRef.of (T := ⟨S_, .f32⟩) main_call2_cst) (constant S_ .f32 0x00000000#32),
        TRef.unary (TRef.of (T := ⟨S_, .f32⟩) main_call2_cst) (TRef.of (T := ⟨S100000x64, .f32⟩) main_call2_v0) (broadcastInDim S100000x64 ![] bcast_S_S100000x64),
        TRef.binary (TRef.of (T := ⟨S100000x64, .f32⟩) main_v69) (TRef.of (T := ⟨S100000x64, .f32⟩) main_call2_v0) (TRef.of (T := ⟨S100000x64, .f32⟩) main_v70) maximumf ]

/-- Operations 85 … 88 of the reference's @main. -/
abbrev segF : List (HloOp τ sig (Elt F)) :=
  [     binary main_v70 main_arg16 main_v71 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
        unary main_arg17 main_v72 (broadcastInDim S1x40 ![1] bcast_S40_S1x40_1 : (⟨S40, .f32⟩ : BufTy).Contents (Elt F) → (⟨S1x40, .f32⟩ : BufTy).Contents (Elt F)),
        unary main_v72 main_v73 (broadcastInDim S100000x40 ![0, 1] bcast_S1x40_S100000x40_0_1 : (⟨S1x40, .f32⟩ : BufTy).Contents (Elt F) → (⟨S100000x40, .f32⟩ : BufTy).Contents (Elt F)),
        binary main_v71 main_v73 main_v74 (addf : (⟨S100000x40, .f32⟩ : BufTy).Contents (Elt F) → (⟨S100000x40, .f32⟩ : BufTy).Contents (Elt F) → (⟨S100000x40, .f32⟩ : BufTy).Contents (Elt F)) ]

/-- Operations 89 … 93 of the reference's @main. -/
abbrev segG1 : List (HloOp τ sig (Elt F)) :=
  [     TRef.nullary (TRef.of (T := ⟨S_, .f32⟩) main_call3_cst) (constant S_ .f32 0xFF800000#32),
        TRef.binary (TRef.of (T := ⟨S100000x40, .f32⟩) main_v74) (TRef.of (T := ⟨S_, .f32⟩) main_call3_cst) (TRef.of (T := ⟨S100000, .f32⟩) main_call3_v0) (fun x v => Host.reduce FloatOps.maximumf x v reducesTo_S100000x40_S100000_d1 h_S_),
        TRef.nullary (TRef.of (T := ⟨S_, .f32⟩) main_call3_cst_0) (constant S_ .f32 0xFF800000#32),
        TRef.unary (TRef.of (T := ⟨S_, .f32⟩) main_call3_cst_0) (TRef.of (T := ⟨S100000, .f32⟩) main_call3_v1) (broadcastInDim S100000 ![] bcast_S_S100000),
        TRef.binary (TRef.of (T := ⟨S100000, .f32⟩) main_call3_v1) (TRef.of (T := ⟨S100000, .f32⟩) main_call3_v0) (TRef.of (T := ⟨S100000, .f32⟩) main_call3_v2) maximumf ]

/-- Operations 94 … 96 of the reference's @main. -/
abbrev segG2 : List (HloOp τ sig (Elt F)) :=
  [     TRef.unary (TRef.of (T := ⟨S100000, .f32⟩) main_call3_v2) (TRef.of (T := ⟨S100000x1, .f32⟩) main_call3_v3) (broadcastInDim S100000x1 ![0] bcast_S100000_S100000x1_0),
        TRef.unary (TRef.of (T := ⟨S100000x1, .f32⟩) main_call3_v3) (TRef.of (T := ⟨S100000x40, .f32⟩) main_call3_v4) (broadcastInDim S100000x40 ![0, 1] bcast_S100000x1_S100000x40_0_1),
        TRef.binary (TRef.of (T := ⟨S100000x40, .f32⟩) main_v74) (TRef.of (T := ⟨S100000x40, .f32⟩) main_call3_v4) (TRef.of (T := ⟨S100000x40, .f32⟩) main_call3_v5) subf ]

/-- Operations 97 … 99 of the reference's @main. -/
abbrev segG3 : List (HloOp τ sig (Elt F)) :=
  [     TRef.unary (TRef.of (T := ⟨S100000x40, .f32⟩) main_call3_v5) (TRef.of (T := ⟨S100000x40, .f32⟩) main_call3_v6) Host.exp,
        TRef.nullary (TRef.of (T := ⟨S_, .f32⟩) main_call3_cst_1) (constant S_ .f32 0x00000000#32),
        TRef.binary (TRef.of (T := ⟨S100000x40, .f32⟩) main_call3_v6) (TRef.of (T := ⟨S_, .f32⟩) main_call3_cst_1) (TRef.of (T := ⟨S100000, .f32⟩) main_call3_v7) (fun x v => Host.reduceAdd x v reducesTo_S100000x40_S100000_d1 h_S_) ]

/-- Operations 100 … 103 of the reference's @main. -/
abbrev segG4 : List (HloOp τ sig (Elt F)) :=
  [     TRef.unary (TRef.of (T := ⟨S100000, .f32⟩) main_call3_v7) (TRef.of (T := ⟨S100000x1, .f32⟩) main_call3_v8) (broadcastInDim S100000x1 ![0] bcast_S100000_S100000x1_0),
        TRef.unary (TRef.of (T := ⟨S100000x1, .f32⟩) main_call3_v8) (TRef.of (T := ⟨S100000x1, .f32⟩) main_call3_v9) Host.log,
        TRef.unary (TRef.of (T := ⟨S100000x1, .f32⟩) main_call3_v9) (TRef.of (T := ⟨S100000x40, .f32⟩) main_call3_v10) (broadcastInDim S100000x40 ![0, 1] bcast_S100000x1_S100000x40_0_1),
        TRef.binary (TRef.of (T := ⟨S100000x40, .f32⟩) main_call3_v5) (TRef.of (T := ⟨S100000x40, .f32⟩) main_call3_v10) (TRef.of (T := ⟨S100000x40, .f32⟩) main_v75) subf ]

/-- A fold over two stretches in a row is the fold over the second of the fold over the first. -/
theorem after_append (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The 104 operations are the ten stretches in order. -/
theorem ops_eq : (ops (F := Ideal))
    = segA ++ (segB ++ (segC ++ (segD ++ (segE ++ (segF ++ (segG1 ++ (segG2 ++ (segG3 ++ segG4)))))))) := rfl

/-! ## The stages a stretch ends in -/

/-- A layer's output from its hidden units: the second product, the bias, the rectifier. -/
def outRef (h : FVec Ideal S100000x64 .f32) (w2 : FVec Ideal S64x64 .f32) (b2 : FVec Ideal S64 .f32) : FVec Ideal S100000x64 .f32 :=
  maximumf (addf (Host.dotGeneral dot_S100000x64_S64x64_S100000x64_1_0_0_1_n_n none h w2) (broadcastInDim S100000x64 ![0, 1] bcast_S1x64_S100000x64_0_1 (broadcastInDim S1x64 ![1] bcast_S64_S1x64_1 b2))) (broadcastInDim S100000x64 ![] bcast_S_S100000x64 (constant (F := Ideal) S_ .f32 0x00000000#32))
/-- The logits from the hidden units: the second product and the bias. -/
def logitsOf (h : FVec Ideal S100000x64 .f32) (w2 : FVec Ideal S64x40 .f32) (b2 : FVec Ideal S40 .f32) : FVec Ideal S100000x40 .f32 :=
  addf (Host.dotGeneral dot_S100000x64_S64x40_S100000x40_1_0_0_1_n_n none h w2) (broadcastInDim S100000x40 ![0, 1] bcast_S1x40_S100000x40_0_1 (broadcastInDim S1x40 ![1] bcast_S40_S1x40_1 b2))
/-- Each node's maximum logit (folded from −∞, and compared with −∞ once more). -/
def rowMaxRef (Z : FVec Ideal S100000x40 .f32) : FVec Ideal S100000 .f32 :=
  maximumf (broadcastInDim S100000 ![] bcast_S_S100000 (constant (F := Ideal) S_ .f32 0xFF800000#32))
    (Host.reduce (FloatOps.maximumf (F := Ideal) (φ := .f32)) Z (constant (F := Ideal) S_ .f32 0xFF800000#32) reducesTo_S100000x40_S100000_d1 h_S_)
/-- The logits shifted by each node's value `M`. -/
def shiftRef (Z : FVec Ideal S100000x40 .f32) (M : FVec Ideal S100000 .f32) : FVec Ideal S100000x40 .f32 :=
  subf Z (broadcastInDim S100000x40 ![0, 1] bcast_S100000x1_S100000x40_0_1 (broadcastInDim S100000x1 ![0] bcast_S100000_S100000x1_0 M))
/-- Each node's sum of exponentials. -/
def expSumRef (D : FVec Ideal S100000x40 .f32) : FVec Ideal S100000 .f32 :=
  Host.reduceAdd (Host.exp D) (constant (F := Ideal) S_ .f32 0x00000000#32) reducesTo_S100000x40_S100000_d1 h_S_
/-- The shifted logits less the logarithm of each node's sum. -/
def finishRef (D : FVec Ideal S100000x40 .f32) (S : FVec Ideal S100000 .f32) : FVec Ideal S100000x40 .f32 :=
  subf D (broadcastInDim S100000x40 ![0, 1] bcast_S100000x1_S100000x40_0_1 (Host.log (broadcastInDim S100000x1 ![0] bcast_S100000_S100000x1_0 S)))

/-- The four steps composed are the reference's log-softmax. -/
theorem logSoftmaxRef_steps (Z : FVec Ideal S100000x40 .f32) :
    finishRef (shiftRef Z (rowMaxRef Z)) (expSumRef (shiftRef Z (rowMaxRef Z))) = logSoftmaxRef Z := rfl

/-! ## The typed references of the row maximum's buffers carry their contents unchanged -/

theorem of_call3_v2 (X : (⟨S100000, .f32⟩ : BufTy).Contents (Elt Ideal)) :
    (TRef.of (T := ⟨S100000, .f32⟩) main_call3_v2).ofBuf X = X := rfl
theorem to_call3_v2 (X : (⟨S100000, .f32⟩ : BufTy).Contents (Elt Ideal)) :
    (TRef.of (T := ⟨S100000, .f32⟩) main_call3_v2).toBuf X = X := rfl
theorem of_call3_v1 (X : (⟨S100000, .f32⟩ : BufTy).Contents (Elt Ideal)) :
    (TRef.of (T := ⟨S100000, .f32⟩) main_call3_v1).ofBuf X = X := rfl
theorem to_call3_v1 (X : (⟨S100000, .f32⟩ : BufTy).Contents (Elt Ideal)) :
    (TRef.of (T := ⟨S100000, .f32⟩) main_call3_v1).toBuf X = X := rfl
theorem of_call3_cst_0 (X : (⟨S_, .f32⟩ : BufTy).Contents (Elt Ideal)) :
    (TRef.of (T := ⟨S_, .f32⟩) main_call3_cst_0).ofBuf X = X := rfl
theorem to_call3_cst_0 (X : (⟨S_, .f32⟩ : BufTy).Contents (Elt Ideal)) :
    (TRef.of (T := ⟨S_, .f32⟩) main_call3_cst_0).toBuf X = X := rfl
theorem of_call3_v0 (X : (⟨S100000, .f32⟩ : BufTy).Contents (Elt Ideal)) :
    (TRef.of (T := ⟨S100000, .f32⟩) main_call3_v0).ofBuf X = X := rfl
theorem to_call3_v0 (X : (⟨S100000, .f32⟩ : BufTy).Contents (Elt Ideal)) :
    (TRef.of (T := ⟨S100000, .f32⟩) main_call3_v0).toBuf X = X := rfl
theorem of_v74 (X : (⟨S100000x40, .f32⟩ : BufTy).Contents (Elt Ideal)) :
    (TRef.of (T := ⟨S100000x40, .f32⟩) main_v74).ofBuf X = X := rfl
theorem to_v74 (X : (⟨S100000x40, .f32⟩ : BufTy).Contents (Elt Ideal)) :
    (TRef.of (T := ⟨S100000x40, .f32⟩) main_v74).toBuf X = X := rfl

/-! ## What each stretch computes, from any contents `W` -/

section Stretches
variable (W : Valuation τ sig (Elt Ideal))

theorem rA_v1 : after (segA (F := Ideal)) W (Proc.devRef .tc main_v1) = srcRef (W (Proc.devRef .tc main_arg1)) := by
  after_results_simp <;> rfl
theorem rA_v3 : after (segA (F := Ideal)) W (Proc.devRef .tc main_v3) = dstRef (W (Proc.devRef .tc main_arg1)) := by
  after_results_simp <;> rfl
theorem rA_v13 : after (segA (F := Ideal)) W (Proc.devRef .tc main_v13)
    = aggregateRef (W (Proc.devRef .tc main_arg0)) (srcRef (W (Proc.devRef .tc main_arg1))) (dstRef (W (Proc.devRef .tc main_arg1))) := by
  after_results_simp <;> rfl
theorem rB_v34 : after (segB (F := Ideal)) W (Proc.devRef .tc main_v34)
    = hiddenRef (addf (W (Proc.devRef .tc main_v13)) (W (Proc.devRef .tc main_arg0))) (W (Proc.devRef .tc main_arg2)) (W (Proc.devRef .tc main_arg3)) (W (Proc.devRef .tc main_arg6))
        (W (Proc.devRef .tc main_arg7)) (W (Proc.devRef .tc main_arg4)) (W (Proc.devRef .tc main_arg5)) := by
  after_results_simp <;> rfl
theorem rC_v39 : after (segC (F := Ideal)) W (Proc.devRef .tc main_v39)
    = outRef (W (Proc.devRef .tc main_v34)) (W (Proc.devRef .tc main_arg8)) (W (Proc.devRef .tc main_arg9)) := by
  after_results_simp <;> rfl
theorem rD_v49 : after (segD (F := Ideal)) W (Proc.devRef .tc main_v49)
    = aggregateRef (W (Proc.devRef .tc main_v39)) (W (Proc.devRef .tc main_v1)) (W (Proc.devRef .tc main_v3)) := by
  after_results_simp <;> rfl
theorem rE_v70 : after (segE (F := Ideal)) W (Proc.devRef .tc main_v70)
    = hiddenRef (addf (W (Proc.devRef .tc main_v49)) (W (Proc.devRef .tc main_v39))) (W (Proc.devRef .tc main_arg10)) (W (Proc.devRef .tc main_arg11)) (W (Proc.devRef .tc main_arg14))
        (W (Proc.devRef .tc main_arg15)) (W (Proc.devRef .tc main_arg12)) (W (Proc.devRef .tc main_arg13)) := by
  after_results_simp <;> rfl
theorem rF_v74 : after (segF (F := Ideal)) W (Proc.devRef .tc main_v74)
    = logitsOf (W (Proc.devRef .tc main_v70)) (W (Proc.devRef .tc main_arg16)) (W (Proc.devRef .tc main_arg17)) := by
  after_results_simp <;> rfl
theorem rG1_max : after (segG1 (F := Ideal)) W (Proc.devRef .tc main_call3_v2) = rowMaxRef (W (Proc.devRef .tc main_v74)) := by
  after_results_simp
  rw [to_call3_v2, of_call3_v1, to_call3_v1, of_call3_cst_0, to_call3_cst_0, of_call3_v0, to_call3_v0, of_v74]
  rfl
theorem rG1_keep : after (segG1 (F := Ideal)) W (Proc.devRef .tc main_v74) = W (Proc.devRef .tc main_v74) := by
  after_results_simp <;> rfl
theorem rG2_shift : after (segG2 (F := Ideal)) W (Proc.devRef .tc main_call3_v5) = shiftRef (W (Proc.devRef .tc main_v74)) (W (Proc.devRef .tc main_call3_v2)) := by
  after_results_simp <;> rfl
theorem rG3_sum : after (segG3 (F := Ideal)) W (Proc.devRef .tc main_call3_v7) = expSumRef (W (Proc.devRef .tc main_call3_v5)) := by
  after_results_simp <;> rfl
theorem rG3_keep : after (segG3 (F := Ideal)) W (Proc.devRef .tc main_call3_v5) = W (Proc.devRef .tc main_call3_v5) := by
  after_results_simp <;> rfl
theorem rG4_v75 : after (segG4 (F := Ideal)) W (Proc.devRef .tc main_v75) = finishRef (W (Proc.devRef .tc main_call3_v5)) (W (Proc.devRef .tc main_call3_v7)) := by
  after_results_simp <;> rfl

/-- The four log-softmax stretches together: the log-softmax of the logits they find. -/
theorem rG_v75 : after (segG4 (F := Ideal)) (after (segG3 (F := Ideal)) (after (segG2 (F := Ideal)) (after (segG1 (F := Ideal)) W))) (Proc.devRef .tc main_v75)
    = logSoftmaxRef (W (Proc.devRef .tc main_v74)) := by
  rw [rG4_v75, rG3_sum, rG3_keep, rG2_shift, rG1_max, rG1_keep]
  exact logSoftmaxRef_steps _

end Stretches

/-! ## What is kept from stretch to stretch -/

variable (m : (ℓ : Loc nD τ sig) → Buf (Elt Ideal) ℓ) (c : Dev nD)

theorem U1_arg0 : (after (segA (F := Ideal)) (launchContents m c)) (Proc.devRef .tc main_arg0) = m ((c.tc : Thread nD τ).loc main_arg0) := by
  after_results_simp <;> rfl
theorem U1_arg2 : (after (segA (F := Ideal)) (launchContents m c)) (Proc.devRef .tc main_arg2) = m ((c.tc : Thread nD τ).loc main_arg2) := by
  after_results_simp <;> rfl
theorem U1_arg3 : (after (segA (F := Ideal)) (launchContents m c)) (Proc.devRef .tc main_arg3) = m ((c.tc : Thread nD τ).loc main_arg3) := by
  after_results_simp <;> rfl
theorem U1_arg4 : (after (segA (F := Ideal)) (launchContents m c)) (Proc.devRef .tc main_arg4) = m ((c.tc : Thread nD τ).loc main_arg4) := by
  after_results_simp <;> rfl
theorem U1_arg5 : (after (segA (F := Ideal)) (launchContents m c)) (Proc.devRef .tc main_arg5) = m ((c.tc : Thread nD τ).loc main_arg5) := by
  after_results_simp <;> rfl
theorem U1_arg6 : (after (segA (F := Ideal)) (launchContents m c)) (Proc.devRef .tc main_arg6) = m ((c.tc : Thread nD τ).loc main_arg6) := by
  after_results_simp <;> rfl
theorem U1_arg7 : (after (segA (F := Ideal)) (launchContents m c)) (Proc.devRef .tc main_arg7) = m ((c.tc : Thread nD τ).loc main_arg7) := by
  after_results_simp <;> rfl
theorem U2_arg8 : (after (segB (F := Ideal)) (after (segA (F := Ideal)) (launchContents m c))) (Proc.devRef .tc main_arg8) = m ((c.tc : Thread nD τ).loc main_arg8) := by
  after_results_simp <;> rfl
theorem U2_arg9 : (after (segB (F := Ideal)) (after (segA (F := Ideal)) (launchContents m c))) (Proc.devRef .tc main_arg9) = m ((c.tc : Thread nD τ).loc main_arg9) := by
  after_results_simp <;> rfl
theorem U4_arg10 : (after (segD (F := Ideal)) (after (segC (F := Ideal)) (after (segB (F := Ideal)) (after (segA (F := Ideal)) (launchContents m c))))) (Proc.devRef .tc main_arg10) = m ((c.tc : Thread nD τ).loc main_arg10) := by
  after_results_simp <;> rfl
theorem U4_arg11 : (after (segD (F := Ideal)) (after (segC (F := Ideal)) (after (segB (F := Ideal)) (after (segA (F := Ideal)) (launchContents m c))))) (Proc.devRef .tc main_arg11) = m ((c.tc : Thread nD τ).loc main_arg11) := by
  after_results_simp <;> rfl
theorem U4_arg12 : (after (segD (F := Ideal)) (after (segC (F := Ideal)) (after (segB (F := Ideal)) (after (segA (F := Ideal)) (launchContents m c))))) (Proc.devRef .tc main_arg12) = m ((c.tc : Thread nD τ).loc main_arg12) := by
  after_results_simp <;> rfl
theorem U4_arg13 : (after (segD (F := Ideal)) (after (segC (F := Ideal)) (after (segB (F := Ideal)) (after (segA (F := Ideal)) (launchContents m c))))) (Proc.devRef .tc main_arg13) = m ((c.tc : Thread nD τ).loc main_arg13) := by
  after_results_simp <;> rfl
theorem U4_arg14 : (after (segD (F := Ideal)) (after (segC (F := Ideal)) (after (segB (F := Ideal)) (after (segA (F := Ideal)) (launchContents m c))))) (Proc.devRef .tc main_arg14) = m ((c.tc : Thread nD τ).loc main_arg14) := by
  after_results_simp <;> rfl
theorem U4_arg15 : (after (segD (F := Ideal)) (after (segC (F := Ideal)) (after (segB (F := Ideal)) (after (segA (F := Ideal)) (launchContents m c))))) (Proc.devRef .tc main_arg15) = m ((c.tc : Thread nD τ).loc main_arg15) := by
  after_results_simp <;> rfl
theorem U5_arg16 : (after (segE (F := Ideal)) (after (segD (F := Ideal)) (after (segC (F := Ideal)) (after (segB (F := Ideal)) (after (segA (F := Ideal)) (launchContents m c)))))) (Proc.devRef .tc main_arg16) = m ((c.tc : Thread nD τ).loc main_arg16) := by
  after_results_simp <;> rfl
theorem U5_arg17 : (after (segE (F := Ideal)) (after (segD (F := Ideal)) (after (segC (F := Ideal)) (after (segB (F := Ideal)) (after (segA (F := Ideal)) (launchContents m c)))))) (Proc.devRef .tc main_arg17) = m ((c.tc : Thread nD τ).loc main_arg17) := by
  after_results_simp <;> rfl
theorem U3_v1_keep : (after (segC (F := Ideal)) (after (segB (F := Ideal)) (after (segA (F := Ideal)) (launchContents m c)))) (Proc.devRef .tc main_v1) = (after (segA (F := Ideal)) (launchContents m c)) (Proc.devRef .tc main_v1) := by
  after_results_simp <;> rfl
theorem U3_v3_keep : (after (segC (F := Ideal)) (after (segB (F := Ideal)) (after (segA (F := Ideal)) (launchContents m c)))) (Proc.devRef .tc main_v3) = (after (segA (F := Ideal)) (launchContents m c)) (Proc.devRef .tc main_v3) := by
  after_results_simp <;> rfl
theorem U4_v39_keep : (after (segD (F := Ideal)) (after (segC (F := Ideal)) (after (segB (F := Ideal)) (after (segA (F := Ideal)) (launchContents m c))))) (Proc.devRef .tc main_v39) = (after (segC (F := Ideal)) (after (segB (F := Ideal)) (after (segA (F := Ideal)) (launchContents m c)))) (Proc.devRef .tc main_v39) := by
  after_results_simp <;> rfl

/-! ## The result -/

/-- The first layer's output, in the reference's spelling. -/
def firstRef : FVec Ideal S100000x64 .f32 :=
  layer0Ref (m ((c.tc : Thread nD τ).loc main_arg0)) (aggregateRef (m ((c.tc : Thread nD τ).loc main_arg0)) (srcRef (m ((c.tc : Thread nD τ).loc main_arg1))) (dstRef (m ((c.tc : Thread nD τ).loc main_arg1)))) (m ((c.tc : Thread nD τ).loc main_arg2)) (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8)) (m ((c.tc : Thread nD τ).loc main_arg9))

theorem U1_v13 : (after (segA (F := Ideal)) (launchContents m c)) (Proc.devRef .tc main_v13) = aggregateRef (m ((c.tc : Thread nD τ).loc main_arg0)) (srcRef (m ((c.tc : Thread nD τ).loc main_arg1))) (dstRef (m ((c.tc : Thread nD τ).loc main_arg1))) :=
  rA_v13 _
theorem U1_v1 : (after (segA (F := Ideal)) (launchContents m c)) (Proc.devRef .tc main_v1) = srcRef (m ((c.tc : Thread nD τ).loc main_arg1)) := rA_v1 _
theorem U1_v3 : (after (segA (F := Ideal)) (launchContents m c)) (Proc.devRef .tc main_v3) = dstRef (m ((c.tc : Thread nD τ).loc main_arg1)) := rA_v3 _

theorem U3_v39 : (after (segC (F := Ideal)) (after (segB (F := Ideal)) (after (segA (F := Ideal)) (launchContents m c)))) (Proc.devRef .tc main_v39) = firstRef m c := by
  rw [rC_v39, rB_v34, U1_v13, U1_arg0, U1_arg2, U1_arg3, U1_arg4, U1_arg5, U1_arg6, U1_arg7, U2_arg8, U2_arg9]
  rfl

theorem U4_v49 : (after (segD (F := Ideal)) (after (segC (F := Ideal)) (after (segB (F := Ideal)) (after (segA (F := Ideal)) (launchContents m c))))) (Proc.devRef .tc main_v49) = aggregateRef (firstRef m c) (srcRef (m ((c.tc : Thread nD τ).loc main_arg1))) (dstRef (m ((c.tc : Thread nD τ).loc main_arg1))) := by
  rw [rD_v49, U3_v39, U3_v1_keep, U3_v3_keep, U1_v1, U1_v3]

/-- The reference's result buffer holds the reference's stages applied to the arguments. -/
theorem result_eq : res_main_v75 (F := Ideal) m c
    = networkRef (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold res_main_v75
  rw [ops_eq, after_append, after_append, after_append, after_append, after_append, after_append, after_append, after_append,
    after_append]
  rw [rG_v75, rF_v74, rE_v70, U4_v49, U4_v39_keep, U3_v39, U4_arg10, U4_arg11, U4_arg12, U4_arg13, U4_arg14, U4_arg15, U5_arg16, U5_arg17]
  rfl

end Cert.ReferenceIdeal.RefResult

end
-- ==== Proof.lean ====
/-
  A two-layer graph network on 100000 nodes and 1600000 edges, as a kernel in two regions and as a plain host
  program, computes the same function at the ideal values.

  Every node adds the sum of its in-neighbours' feature rows to its own row; a linear map to 64 hidden units, a
  normalisation by fixed statistics (x − μ) · rsqrt (σ² + ε) · γ + β, a rectifier and a second linear map follow.  The
  first layer rectifies its 64 outputs; the second returns the logarithm of the softmax of its 40 outputs, in the
  shifted form (z − max z) − log Σ exp (z − max z).  The neighbour sums are a gather along the edges and a
  scatter-add, which both programs leave to the host with the same two operations.

  The kernel computes each layer on blocks of 10000 nodes; a node's output depends on its own row and its
  aggregated row only, so the ten blocks together are the layer on all nodes (Region0, Region1).  Its matrix
  products into a zero accumulator and the host's products are the same sums over the 64 features, its row
  reductions the host's (Payload, RefValue).  The reference takes the row maximum once more against −∞, which
  changes nothing.  Following every buffer through the kernel's four segments (KernelValue) and through the
  reference's 104 operations (RefRun, RefResult) both result arrays are the network's function (Layers, Network)
  of the eighteen arguments, and the arguments agree.  No step uses that the inputs are finite.
-/
import proofs.«162577_j87101936763026_1_alg».proof.Defs
import proofs.«162577_j87101936763026_1_alg».proof.Proof.Gen.Kernel
import proofs.«162577_j87101936763026_1_alg».proof.Proof.Gen.Kernel.Skeleton
import proofs.«162577_j87101936763026_1_alg».proof.Proof.Gen.Kernel.Launch
import proofs.«162577_j87101936763026_1_alg».proof.Proof.Gen.Kernel.Points
import proofs.«162577_j87101936763026_1_alg».proof.Proof.Gen.Kernel.Frame
import proofs.«162577_j87101936763026_1_alg».proof.Proof.Gen.KernelIdeal
import proofs.«162577_j87101936763026_1_alg».proof.Proof.Gen.KernelIdeal.Skeleton
import proofs.«162577_j87101936763026_1_alg».proof.Proof.Gen.KernelIdeal.Launch
import proofs.«162577_j87101936763026_1_alg».proof.Proof.Gen.KernelIdeal.Points
import proofs.«162577_j87101936763026_1_alg».proof.Proof.Gen.KernelIdeal.Frame
import proofs.«162577_j87101936763026_1_alg».proof.Proof.Gen.ReferenceIdeal
import proofs.«162577_j87101936763026_1_alg».proof.Proof.Gen.Pre_finite_inputs
import proofs.«162577_j87101936763026_1_alg».proof.Proof.KernelValue
import proofs.«162577_j87101936763026_1_alg».proof.Proof.RefResult
import Idealize.ShloMosaic.Adequacy
import Idealize.ShloMosaic.Init

noncomputable section

namespace Cert.Proof

open Idealize.ShloMosaic Idealize.SL.Sem

/-- The kernel as printed runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the network's output of those arguments in
    their result arrays. -/
theorem algebraic : Cert.algebraic_KernelIdeal_ReferenceIdeal := by
  intro m ρ m' ρ' _ hagree
  refine ⟨fun c => Cert.KernelIdeal.Whole.output m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16, e17⟩ := hagree c
  rw [Cert.ReferenceIdeal.RefResult.result_eq, Cert.ReferenceIdeal.RefValue.networkRef_eq,
    e0, e1, e2, e3, e4, e5, e6, e7, e8, e9, e10, e11, e12, e13, e14, e15, e16, e17]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
